-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) (main_arg2 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x512 : Shape := ⟨2, ![1024, 512]⟩
abbrev S512x512 : Shape := ⟨2, ![512, 512]⟩
abbrev S1024x1 : Shape := ⟨2, ![1024, 1]⟩
abbrev S1x512 : Shape := ⟨2, ![1, 512]⟩
abbrev S1024 : Shape := ⟨1, ![1024]⟩

abbrev nBuf : Space → Nat
  | .hbm => 27
  | .vmem => 20
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192, .i32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x512, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S8192x1, .i32⟩
  | .hbm, ⟨12, _⟩ => ⟨S1x8192, .i32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .i1⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S512x512, .f32⟩
  | .local _ .vmem, ⟨4, _⟩ => ⟨S1024x1, .f32⟩
  | .local _ .vmem, ⟨5, _⟩ => ⟨S1024x1, .f32⟩
  | .local _ .vmem, ⟨6, _⟩ => ⟨S1x512, .f32⟩
  | .local _ .vmem, ⟨7, _⟩ => ⟨S1x512, .f32⟩
  | .local _ .vmem, ⟨8, _⟩ => ⟨S1024x1, .i32⟩
  | .local _ .vmem, ⟨9, _⟩ => ⟨S1024x1, .i32⟩
  | .local _ .vmem, ⟨10, _⟩ => ⟨S1x512, .i32⟩
  | .local _ .vmem, ⟨11, _⟩ => ⟨S1x512, .i32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | .local _ .vmem, ⟨18, _⟩ => ⟨S1024x1, .f32⟩
  | .local _ .vmem, ⟨19, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_call0_v0 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v76 : BitVec 1 := Scalar.cmpi .eq arg1 c15_i32
  let v77 : BitVec 32 := Scalar.extui v76
  let c0_i32_37 : BitVec 32 := 0#32
  let v78 : BitVec 1 := Scalar.cmpi .ne v77 c0_i32_37
  v78

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  reducesTo_S8192x512_S8192_d1 : S8192x512.ReducesTo [1] S8192
  h_S_ : 0 < S_.numel
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  iota_S1024x512_d0_w32 : S1024x512.Iotas .tc 32 [0]
  iota_S1024x512_d1_w32 : S1024x512.Iotas .tc 32 [1]
  reduces_S1024x512_S1024 : S1024x512.Reduces [1] S1024
  shapeCasts_S1024_S1024x1 : S1024.ShapeCasts S1024x1
  natLt_1_32 : 1 < 32
  reducesTo_S8192x1_S_d0_1 : S8192x1.ReducesTo [0, 1] S_
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .f32 = 32 ∨ (Rect.block (s := S8192x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .i32 = 32 ∨ (Rect.block (s := S8192x1) S1024x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x8192.size a
  hwx0_5 : ∀ i : grid0.Coords, EltTy.bits .i32 = 32 ∨ (Rect.block (s := S1x8192) S1x512.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S8192x1.size a
  hwx0_7 : ∀ i : grid0.Coords, EltTy.bits .f32 = 32 ∨ (Rect.block (s := S8192x1) S1024x1.size (cc0_transform_7 i) (hinb0_7 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_0) S1024x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_1) S1024x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S512x8192 : Shape := ⟨2, ![512, 8192]⟩

abbrev nBuf : Space → Nat
  | .hbm => 77
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192, .i32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S512x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S8192x1, .i32⟩
  | .hbm, ⟨25, _⟩ => ⟨S1x8192, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S8192x8192, .i32⟩
  | .hbm, ⟨30, _⟩ => ⟨S8192x8192, .i32⟩
  | .hbm, ⟨31, _⟩ => ⟨S_, .i32⟩
  | .hbm, ⟨32, _⟩ => ⟨S8192x8192, .i32⟩
  | .hbm, ⟨33, _⟩ => ⟨S8192x8192, .i32⟩
  | .hbm, ⟨34, _⟩ => ⟨S8192x8192, .i1⟩
  | .hbm, ⟨35, _⟩ => ⟨S8192x8192, .i1⟩
  | .hbm, ⟨36, _⟩ => ⟨S8192x8192, .i1⟩
  | .hbm, ⟨37, _⟩ => ⟨S8192x8192, .i1⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S8192, .f32⟩
  | .hbm, ⟨48, _⟩ => ⟨S_, .i1⟩
  | .hbm, ⟨49, _⟩ => ⟨S8192, .i1⟩
  | .hbm, ⟨50, _⟩ => ⟨S_, .i1⟩
  | .hbm, ⟨51, _⟩ => ⟨S8192, .i1⟩
  | .hbm, ⟨52, _⟩ => ⟨S8192, .i1⟩
  | .hbm, ⟨53, _⟩ => ⟨S8192, .f32⟩
  | .hbm, ⟨54, _⟩ => ⟨S_, .f32⟩
  | .hbm, ⟨55, _⟩ => ⟨S8192, .f32⟩
  | .hbm, ⟨56, _⟩ => ⟨S8192, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S_, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S8192, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .i1⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_call0_v0 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_cst_5 : Ref sig .tc := ⟨.hbm, 43, rfl⟩
abbrev main_call1_v0 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_c_7 : Ref sig .tc := ⟨.hbm, 48, rfl⟩
abbrev main_v34 : Ref sig .tc := ⟨.hbm, 49, rfl⟩
abbrev main_c_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_call2_v0 : Ref sig .tc := ⟨.hbm, 61, rfl⟩
abbrev main_call2_v1 : Ref sig .tc := ⟨.hbm, 62, rfl⟩
abbrev main_v42 : Ref sig .tc := ⟨.hbm, 63, rfl⟩
abbrev main_v43 : Ref sig .tc := ⟨.hbm, 64, rfl⟩
abbrev main_cst_12 : Ref sig .tc := ⟨.hbm, 65, rfl⟩
abbrev main_v44 : Ref sig .tc := ⟨.hbm, 66, rfl⟩
abbrev main_cst_13 : Ref sig .tc := ⟨.hbm, 67, rfl⟩
abbrev main_v45 : Ref sig .tc := ⟨.hbm, 68, rfl⟩
abbrev main_cst_14 : Ref sig .tc := ⟨.hbm, 69, rfl⟩
abbrev main_v46 : Ref sig .tc := ⟨.hbm, 70, rfl⟩
abbrev main_cst_15 : Ref sig .tc := ⟨.hbm, 71, rfl⟩
abbrev main_v47 : Ref sig .tc := ⟨.hbm, 72, rfl⟩
abbrev main_v48 : Ref sig .tc := ⟨.hbm, 73, rfl⟩
abbrev main_cst_16 : Ref sig .tc := ⟨.hbm, 74, rfl⟩
abbrev main_call3_v0 : Ref sig .tc := ⟨.hbm, 75, rfl⟩
abbrev main_v49 : Ref sig .tc := ⟨.hbm, 76, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x512_S512x8192_1_0 : S8192x512.Transposes [1, 0] S512x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.RowOps.lean ====
/-
  Row-wise operations of a matrix read at a row, at the ideal values.

  Reducing a matrix along its columns — the host's `reduce` with any commutative, associative body, and the
  kernel's lane reductions by maximum and by minimum — gives, at row `r`, the fold of the body over the entries
  `(r, col)` of that row, from the initial value.  A vector laid out as a one-column matrix reads, at `(r, 0)`, the
  vector's entry `r`; a one-column matrix broadcast along the rows reads, at `(r, col)`, its entry `(r, 0)`.
-/
import Idealize.ShloMosaic.PureOps.Ideal.Laws
import Idealize.ShloMosaic.Lib.ValueIdx
import Idealize.ShloMosaic.Lib.ValueLayout
import Idealize.ShloMosaic.Lib.Pipeline.Value

noncomputable section

namespace Cert.Triplet

open Idealize.ShloMosaic Idealize.ShloMosaic.ValueIdx

/-- The reduced index `r` with column `k` put back is `(r, k)`. -/
theorem lift_row {n m : ℕ} (h : (⟨2, ![n, m]⟩ : Shape).Reduces [1] (⟨1, ![n]⟩ : Shape)) (r : Fin n)
    (k : Fin ((⟨2, ![n, m]⟩ : Shape).size 1)) : h.lift (ix1 r) k = ix2 r (⟨k.val, k.isLt⟩ : Fin m) := by
  funext c; apply Fin.ext
  fin_cases c <;> rfl

/-- The host's reduce along the columns, at row `r`: the fold of its body over that row. -/
theorem hostReduce_row {α : Type} (f : α → α → α) [Std.Commutative f] [Std.Associative f] {n m : ℕ} {u : Shape}
    (x : (⟨2, ![n, m]⟩ : Shape).Idx → α) (init : u.Idx → α) (h' : (⟨2, ![n, m]⟩ : Shape).ReducesTo [1] (⟨1, ![n]⟩ : Shape))
    (h : (⟨2, ![n, m]⟩ : Shape).Reduces [1] (⟨1, ![n]⟩ : Shape)) (hu : 0 < u.numel) (r : Fin n) :
    Host.reduce f x init h' hu (ix1 r)
      = (Finset.univ : Finset (Fin m)).fold f (init (Shape.Idx.first hu)) (fun col => x (ix2 r col)) := by
  rw [Host.reduce_eq_fold_single f x init h' h hu]
  exact congrArg (fun g => Finset.fold f (init (Shape.Idx.first hu)) g (Finset.univ : Finset (Fin m)))
    (funext fun k => congrArg x (lift_row h r k))

/-- The kernel's lane maximum, at row `r`: the fold of `max` over that row from the accumulator's value. -/
theorem laneMax_row {n m : ℕ} (src : FVec Ideal ⟨2, ![n, m]⟩ .f32) (acc : BitVec 32)
    (h : (⟨2, ![n, m]⟩ : Shape).Reduces [1] (⟨1, ![n]⟩ : Shape)) (hφ : FKind.Formats .f32)
    (hacc : acc = FKind.maximumf.neutral .f32 hφ) (r : Fin n) :
    multiReduction .maximumf [1] (⟨1, ![n]⟩ : Shape) src acc h hφ hacc (ix1 r)
      = (Finset.univ : Finset (Fin m)).fold max (Ideal.ofBits .f32 acc) (fun col => src (ix2 r col)) := by
  rw [Ideal.multiReduction_maximumf_single]
  exact congrArg (fun g => Finset.fold max (Ideal.ofBits .f32 acc) g (Finset.univ : Finset (Fin m)))
    (funext fun k => congrArg src (lift_row h r k))

/-- The kernel's lane minimum, likewise. -/
theorem laneMin_row {n m : ℕ} (src : FVec Ideal ⟨2, ![n, m]⟩ .f32) (acc : BitVec 32)
    (h : (⟨2, ![n, m]⟩ : Shape).Reduces [1] (⟨1, ![n]⟩ : Shape)) (hφ : FKind.Formats .f32)
    (hacc : acc = FKind.minimumf.neutral .f32 hφ) (r : Fin n) :
    multiReduction .minimumf [1] (⟨1, ![n]⟩ : Shape) src acc h hφ hacc (ix1 r)
      = (Finset.univ : Finset (Fin m)).fold min (Ideal.ofBits .f32 acc) (fun col => src (ix2 r col)) := by
  rw [multiReduction_minimumf_eq_fold]
  refine (h.fold_filter_drop_single _ _ src (ix1 r)).trans ?_
  exact congrArg (fun g => Finset.fold min (Ideal.ofBits .f32 acc) g (Finset.univ : Finset (Fin m)))
    (funext fun k => congrArg src (lift_row h r k))

/-- A vector laid out as one column reads, at `(r, 0)`, its entry `r`. -/
theorem shapeCast_col_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A vector laid out as one row reads, at `(0, c)`, its entry `c`. -/
theorem shapeCast_row_apply {α : Type} {a : ℕ} (x : (⟨1, ![a]⟩ : Shape).Idx → α)
    (h : (⟨1, ![a]⟩ : Shape).ShapeCasts ⟨2, ![1, a]⟩) (u : Fin 1) (c : Fin a) :
    shapeCast ⟨2, ![1, a]⟩ x h (ix2 u c) = x (ix1 c) :=
  shapeCast_a_1a_apply x h u c

/-- A one-column matrix broadcast along the rows reads, at `(r, c)`, its entry `(r, 0)`. -/
theorem broadcastTo_col_apply {α : Type} {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Cert.Triplet

end
-- ==== Proof.Blocks.lean ====
/-
  The operands' blocks at a grid point, in terms of the argument arrays.

  The grid has 8 × 16 points, point `t` standing at row block `t / 16` and column block `t % 16`.  There the pipeline
  stages rows 1024·(t/16) … of the first embedding array and of the two one-column arrays derived from it (the rows'
  squared norms and the labels as a column), and rows 512·(t%16) … of the second embedding array and of the two
  one-row arrays (the squared norms and the labels as a row).  The one-column and one-row arrays are what the host
  operations before the kernel computed: the reference's own row sums of squares, and the label vector, reshaped.
-/
import proofs.«129636_j25451976196909_1_alg».proof.Proof.Gen.KernelIdeal.Frame
import proofs.«129636_j25451976196909_1_alg».proof.Proof.RefRead
import proofs.«129636_j25451976196909_1_alg».proof.Proof.RowOps
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen Cert.Triplet
open Cert.ReferenceIdeal.ReadP (val_main_v1 val_main_v3)

variable (m : (ℓ : Loc nD τ sig) → Buf (Elt Ideal) ℓ)

/-- Where each window's block sits at point `t`, and the point's coordinates: decided once over the 128 points. -/
theorem index_facts : ∀ t : Fin grid0.N,
    (win0_0.index t 0 = t.val / 16 ∧ win0_0.index t 1 = 0) ∧ (win0_1.index t 0 = t.val % 16 ∧ win0_1.index t 1 = 0)
    ∧ (win0_2.index t 0 = t.val / 16 ∧ win0_2.index t 1 = 0) ∧ (win0_3.index t 0 = 0 ∧ win0_3.index t 1 = t.val % 16)
    ∧ (win0_4.index t 0 = t.val / 16 ∧ win0_4.index t 1 = 0) ∧ (win0_5.index t 0 = 0 ∧ win0_5.index t 1 = t.val % 16)
    ∧ (win0_6.index t 0 = t.val / 16 ∧ win0_6.index t 1 = 0) ∧ (win0_7.index t 0 = t.val / 16 ∧ win0_7.index t 1 = 0)
    ∧ ((grid0.coords t 0).val = t.val / 16 ∧ (grid0.coords t 1).val = t.val % 16) := by decide +kernel

/-- The arguments as the kernel's program and the reference name them. -/
abbrev arg0 (c : Dev nD) : (⟨2, ![8192, 512]⟩ : Shape).Idx → Ideal .f32 := m ((c : Thread nD τ).loc main_arg0)
abbrev arg1 (c : Dev nD) : (⟨2, ![8192, 512]⟩ : Shape).Idx → Ideal .f32 := m ((c : Thread nD τ).loc main_arg1)
abbrev arg2 (c : Dev nD) : (⟨1, ![8192]⟩ : Shape).Idx → BitVec 32 := m ((c : Thread nD τ).loc main_arg2)

/-- The host's column of squared norms of the first array is the reference's row sums, as a column. -/
theorem V_sq1 (c : Dev nD) : (V m c main_v2 : S8192x1.Idx → Ideal .f32)
    = shapeCast S8192x1 (val_main_v1 (F := Ideal) (arg0 m c)) shapeCasts_S8192_S8192x1 := by
  show StableHlo.after hostOps0 (fun b => m (c, b)) (Proc.devRef .tc main_v2) = _
  after_results
  rfl

/-- The host's row of squared norms of the second array is the reference's row sums, as a row. -/
theorem V_sq2 (c : Dev nD) : (V m c main_v5 : S1x8192.Idx → Ideal .f32)
    = shapeCast S1x8192 (val_main_v3 (F := Ideal) (arg1 m c)) shapeCasts_S8192_S1x8192 := by
  show StableHlo.after hostOps0 (fun b => m (c, b)) (Proc.devRef .tc main_v5) = _
  after_results
  rfl

/-- The labels as a column, and as a row. -/
theorem V_labCol (c : Dev nD) : (V m c main_v6 : S8192x1.Idx → BitVec 32) = shapeCast S8192x1 (arg2 m c) shapeCasts_S8192_S8192x1 := by
  show StableHlo.after hostOps0 (fun b => m (c, b)) (Proc.devRef .tc main_v6) = _
  after_results
  rfl
theorem V_labRow (c : Dev nD) : (V m c main_v7 : S1x8192.Idx → BitVec 32) = shapeCast S1x8192 (arg2 m c) shapeCasts_S8192_S1x8192 := by
  show StableHlo.after hostOps0 (fun b => m (c, b)) (Proc.devRef .tc main_v7) = _
  after_results
  rfl

/-- Row `p` of the first embedding block is row `r = 1024·(t/16) + p` of the array. -/
theorem blk0 (c : Dev nD) (t : Fin cfg0.N) (p : Fin 1024) (k : Fin 512) (r : Fin 8192) (hr : r.val = t.val / 16 * 1024 + p.val) :
    (iblk m c 0 t : FVec Ideal S1024x512 .f32) (ix2 p k) = arg0 m c (ix2 r k) := by
  unfold iblk
  rw [View.read_apply]
  show V m c main_arg0 _ = _
  rw [V_main_arg0]
  refine congrArg _ (funext fun a => Fin.ext ?_)
  match a with
  | ⟨0, _⟩ => show win0_0.index t 0 * 1024 + 1 * p.val = r.val; rw [(index_facts t).1.1]; omega
  | ⟨1, _⟩ => show win0_0.index t 1 * 512 + 1 * k.val = k.val; rw [(index_facts t).1.2]; omega

/-- Row `q` of the second embedding block is row `col = 512·(t%16) + q` of the array. -/
theorem blk1 (c : Dev nD) (t : Fin cfg0.N) (q : Fin 512) (k : Fin 512) (col : Fin 8192) (hc : col.val = t.val % 16 * 512 + q.val) :
    (iblk m c 1 t : FVec Ideal S512x512 .f32) (ix2 q k) = arg1 m c (ix2 col k) := by
  unfold iblk
  rw [View.read_apply]
  show V m c main_arg1 _ = _
  rw [V_main_arg1]
  refine congrArg _ (funext fun a => Fin.ext ?_)
  match a with
  | ⟨0, _⟩ => show win0_1.index t 0 * 512 + 1 * q.val = col.val; rw [(index_facts t).2.1.1]; omega
  | ⟨1, _⟩ => show win0_1.index t 1 * 512 + 1 * k.val = k.val; rw [(index_facts t).2.1.2]; omega

/-- Entry `p` of the block of squared norms of the first array is the reference's sum of squares of row `r`. -/
theorem blk2 (c : Dev nD) (t : Fin cfg0.N) (p : Fin 1024) (r : Fin 8192) (hr : r.val = t.val / 16 * 1024 + p.val) :
    (iblk m c 2 t : FVec Ideal S1024x1 .f32) (ix2 p (0 : Fin 1)) = val_main_v1 (F := Ideal) (arg0 m c) (ix1 r) := by
  unfold iblk
  rw [View.read_apply]
  show V m c main_v2 _ = _
  rw [V_sq1]
  refine Eq.trans (congrArg _ (funext fun a => Fin.ext ?_)) (shapeCast_col_apply _ shapeCasts_S8192_S8192x1 r (0 : Fin 1))
  match a with
  | ⟨0, _⟩ => show win0_2.index t 0 * 1024 + 1 * p.val = r.val; rw [(index_facts t).2.2.1.1]; omega
  | ⟨1, _⟩ => show win0_2.index t 1 * 1 + 1 * 0 = 0; rw [(index_facts t).2.2.1.2]

theorem blk3 (c : Dev nD) (t : Fin cfg0.N) (q : Fin 512) (col : Fin 8192) (hc : col.val = t.val % 16 * 512 + q.val) :
    (iblk m c 3 t : FVec Ideal S1x512 .f32) (ix2 (0 : Fin 1) q) = val_main_v3 (F := Ideal) (arg1 m c) (ix1 col) := by
  unfold iblk
  rw [View.read_apply]
  show V m c main_v5 _ = _
  rw [V_sq2]
  refine Eq.trans (congrArg _ (funext fun a => Fin.ext ?_)) (shapeCast_row_apply _ shapeCasts_S8192_S1x8192 (0 : Fin 1) col)
  match a with
  | ⟨0, _⟩ => show win0_3.index t 0 * 1 + 1 * 0 = 0; rw [(index_facts t).2.2.2.1.1]
  | ⟨1, _⟩ => show win0_3.index t 1 * 512 + 1 * q.val = col.val; rw [(index_facts t).2.2.2.1.2]; omega

/-- Entry `p` of the label column's block is the label of row `r`; entry `q` of the label row's block that of row `col`. -/
theorem blk4 (c : Dev nD) (t : Fin cfg0.N) (p : Fin 1024) (r : Fin 8192) (hr : r.val = t.val / 16 * 1024 + p.val) :
    (iblk m c 4 t : IVec S1024x1 32) (ix2 p (0 : Fin 1)) = arg2 m c (ix1 r) := by
  unfold iblk
  rw [View.read_apply]
  show V m c main_v6 _ = _
  rw [V_labCol]
  refine Eq.trans (congrArg _ (funext fun a => Fin.ext ?_)) (shapeCast_col_apply _ shapeCasts_S8192_S8192x1 r (0 : Fin 1))
  match a with
  | ⟨0, _⟩ => show win0_4.index t 0 * 1024 + 1 * p.val = r.val; rw [(index_facts t).2.2.2.2.1.1]; omega
  | ⟨1, _⟩ => show win0_4.index t 1 * 1 + 1 * 0 = 0; rw [(index_facts t).2.2.2.2.1.2]

theorem blk5 (c : Dev nD) (t : Fin cfg0.N) (q : Fin 512) (col : Fin 8192) (hc : col.val = t.val % 16 * 512 + q.val) :
    (iblk m c 5 t : IVec S1x512 32) (ix2 (0 : Fin 1) q) = arg2 m c (ix1 col) := by
  unfold iblk
  rw [View.read_apply]
  show V m c main_v7 _ = _
  rw [V_labRow]
  refine Eq.trans (congrArg _ (funext fun a => Fin.ext ?_)) (shapeCast_row_apply _ shapeCasts_S8192_S1x8192 (0 : Fin 1) col)
  match a with
  | ⟨0, _⟩ => show win0_5.index t 0 * 1 + 1 * 0 = 0; rw [(index_facts t).2.2.2.2.2.1.1]
  | ⟨1, _⟩ => show win0_5.index t 1 * 512 + 1 * q.val = col.val; rw [(index_facts t).2.2.2.2.2.1.2]; omega

end Cert.KernelIdeal.Blocks

end
-- ==== Proof.Flags.lean ====
/-
  One-bit words and their readings as numbers.

  A mask bit `b` is read as a float in two ways: widened to 32 bits and converted as a signed integer, or
  converted directly as an unsigned one; either way it is the real number 1 when the bit is set and 0 when it is
  clear.  A row has a marked column exactly when the maximum of those numbers, taken from any base not above 0 and
  then compared with 0, is positive — and exactly when the `or` of the bits over the row is set.  These are the two
  ways the validity of a row is computed, and this module shows they give the same bit.
-/
import Idealize.ShloMosaic.PureOps.Ideal
import Idealize.ShloMosaic.PureOps.Ideal.Laws
import Idealize.ShloMosaic.PureOps.Reduce

noncomputable section

namespace Cert.Triplet

open Idealize.ShloMosaic

/-- A one-bit word is clear or set. -/
theorem bit_cases (b : BitVec 1) : b = 0#1 ∨ b = 1#1 := by
  revert b; decide

/-- The number a mask bit denotes: 1 when set, 0 when clear. -/
def flag (b : BitVec 1) : EReal := if b = 1#1 then 1 else 0

theorem flag_zero : flag 0#1 = 0 := if_neg (by decide)
theorem flag_one : flag 1#1 = 1 := if_pos rfl

theorem flag_pos_iff (b : BitVec 1) : (0 : EReal) < flag b ↔ b = 1#1 := by
  rcases bit_cases b with rfl | rfl
  · rw [flag_zero]; exact ⟨fun h => absurd h (lt_irrefl _), fun h => absurd h (by decide)⟩
  · rw [flag_one]; exact ⟨fun _ => rfl, fun _ => zero_lt_one⟩

/-- Widened to 32 bits and converted as a signed integer, a mask bit is its number. -/
theorem sitofp_setWidth (b : BitVec 1) : FloatOps.sitofp (F := Ideal) .f32 (b.setWidth 32) = flag b := by
  rcases bit_cases b with rfl | rfl
  · rw [flag_zero]; show (((BitVec.setWidth 32 0#1).toInt : ℝ) : EReal) = 0
    rw [show (BitVec.setWidth 32 0#1).toInt = 0 from by decide]; simp
  · rw [flag_one]; show (((BitVec.setWidth 32 1#1).toInt : ℝ) : EReal) = 1
    rw [show (BitVec.setWidth 32 1#1).toInt = 1 from by decide]; simp

/-- Converted as an unsigned integer, likewise. -/
theorem uitofp_bit (b : BitVec 1) : FloatOps.uitofp (F := Ideal) .f32 b = flag b := by
  rcases bit_cases b with rfl | rfl
  · rw [flag_zero]; show (((0#1 : BitVec 1).toNat : ℝ) : EReal) = 0
    rw [show (0#1 : BitVec 1).toNat = 0 from by decide]; simp
  · rw [flag_one]; show (((1#1 : BitVec 1).toNat : ℝ) : EReal) = 1
    rw [show (1#1 : BitVec 1).toNat = 1 from by decide]; simp

/-- An ordered greater-than comparison yields a set bit exactly when the strict inequality holds. -/
theorem cmp_ogt_eq_one (x y : EReal) : Ideal.cmp .ogt x y = 1#1 ↔ y < x := by
  unfold Ideal.cmp
  by_cases h : y < x
  · simp [h]
  · simp [h]

/-- Two one-bit words that are set under the same condition are equal. -/
theorem bit_ext {a b : BitVec 1} (h : a = 1#1 ↔ b = 1#1) : a = b := by
  rcases bit_cases a with rfl | rfl <;> rcases bit_cases b with rfl | rfl
  · rfl
  · exact absurd (h.mpr rfl) (by decide)
  · exact absurd (h.mp rfl) (by decide)
  · rfl

theorem andi_eq_one (a b : BitVec 1) : IntOp.andi a b = 1#1 ↔ a = 1#1 ∧ b = 1#1 := by
  revert a b; decide

theorem ori_eq_one (a b : BitVec 1) : IntOp.ori a b = 1#1 ↔ a = 1#1 ∨ b = 1#1 := by
  revert a b; decide

/-- Negating a mask bit, whether by `not` or by `xor` with the set bit, sets it exactly when it was clear. -/
theorem not_eq_one (a : BitVec 1) : ~~~a = 1#1 ↔ ¬a = 1#1 := by
  revert a; decide

theorem xori_one_eq_one (a : BitVec 1) : IntOp.xori a 1#1 = 1#1 ↔ ¬a = 1#1 := by
  revert a; decide

/-- The `or` of a family of mask bits, from the clear bit, is set exactly when some member is. -/
theorem fold_ori_eq_one {ι : Type*} [DecidableEq ι] (s : Finset ι) (f : ι → BitVec 1) :
    s.fold IntOp.ori 0#1 f = 1#1 ↔ ∃ x ∈ s, f x = 1#1 := by
  induction s using Finset.induction_on with
  | empty => simp
  | insert a s ha ih =>
    rw [Finset.fold_insert ha, ori_eq_one, ih]
    constructor
    · rintro (h | ⟨x, hx, h⟩)
      · exact ⟨a, Finset.mem_insert_self _ _, h⟩
      · exact ⟨x, Finset.mem_insert_of_mem hx, h⟩
    · rintro ⟨x, hx, h⟩
      rcases Finset.mem_insert.mp hx with rfl | hx
      · exact Or.inl h
      · exact Or.inr ⟨x, hx, h⟩

/-- The maximum of the members' numbers, from a base at 0, is positive exactly when some member is set. -/
theorem fold_max_flag_pos {ι : Type*} (s : Finset ι) (f : ι → BitVec 1) :
    (0 : EReal) < s.fold max 0 (fun x => flag (f x)) ↔ ∃ x ∈ s, f x = 1#1 := by
  rw [Finset.lt_fold_max]
  constructor
  · rintro (h | ⟨x, hx, h⟩)
    · exact absurd h (lt_irrefl _)
    · exact ⟨x, hx, (flag_pos_iff _).mp h⟩
  · rintro ⟨x, hx, h⟩
    exact Or.inr ⟨x, hx, (flag_pos_iff _).mpr h⟩

end Cert.Triplet

end
-- ==== Proof.Dist.lean ====
/-
  One entry of the distance matrix, on both sides.

  Entry (r, col) of the reference's distance matrix is √(max(‖a_r‖² + ‖b_col‖² − 2·⟨a_r, b_col⟩, ε)), the inner product a
  sum over the 512 features.  The kernel computes the same expression for the entry (p, q) of a block from the block's
  rows of the two embedding arrays and from the blocks of the two precomputed columns of squared norms; its matrix
  product contracts the same 512 features (its roundings to bf16 are the identity at the ideal values, and its
  transposition only renames the index).  So when the blocks hold rows `r` and `col` of the arrays, the two entries
  are one extended real.
-/
import proofs.«129636_j25451976196909_1_alg».proof.Proof.Gen.KernelIdeal.Skeleton
import proofs.«129636_j25451976196909_1_alg».proof.Proof.RefRead
import proofs.«129636_j25451976196909_1_alg».proof.Proof.RowOps
import proofs.«129636_j25451976196909_1_alg».proof.Proof.Flags

noncomputable section

namespace Cert.Triplet

open Idealize.ShloMosaic Idealize.ShloMosaic.ValueIdx
open Cert.KernelIdeal Cert.KernelIdeal.Gen
open Cert.ReferenceIdeal.ReadP (val_main_v1 val_main_v3 val_main_v4 val_main_v5 val_main_v6 val_main_v7 val_main_v8 val_main_v9
  val_main_v10 val_main_v11 val_main_v12 val_main_v13 val_main_v14 val_main_v15 val_main_v16 val_main_cst_1 val_main_cst_2
  val_main_v4_apply val_main_v5_apply val_main_v6_apply val_main_v7_apply val_main_v8_apply val_main_v9_apply val_main_v10_apply
  val_main_v11_apply val_main_v12_apply val_main_v13_apply val_main_v14_apply val_main_v15_apply val_main_v16_apply
  val_main_cst_1_apply val_main_cst_2_apply idx_main_v4 idx_main_v5 idx_main_v6 idx_main_v7 idx_main_v9 lidx_main_v10 ridx_main_v10)

/-- The block product's left operand is read at the output's row; -/
theorem blockDot_lhs0 (j : S1024x512.Idx) (κ : dot_S1024x512_S512x512_S1024x512_1_0_0_1_n_n.contr.Idx) : (dot_S1024x512_S512x512_S1024x512_1_0_0_1_n_n.lhsIdx j κ 0).val = (j 0).val := by
  unfold DotDims.lhsIdx
  rw [dif_neg (show ¬(0 : Fin S1024x512.rank) ∈ dot_S1024x512_S512x512_S1024x512_1_0_0_1_n_n.lhsBatch by decide),
    dif_pos (show (0 : Fin S1024x512.rank) ∈ dot_S1024x512_S512x512_S1024x512_1_0_0_1_n_n.lhsNonContracting by decide)]
  rfl
/-- and at the contracted feature; -/
theorem blockDot_lhs1 (j : S1024x512.Idx) (κ : dot_S1024x512_S512x512_S1024x512_1_0_0_1_n_n.contr.Idx) : (dot_S1024x512_S512x512_S1024x512_1_0_0_1_n_n.lhsIdx j κ 1).val = (κ ⟨0, by decide⟩).val :=
  dot_S1024x512_S512x512_S1024x512_1_0_0_1_n_n.lhsIdx_val_of_single rfl j κ
/-- the right operand at the contracted feature -/
theorem blockDot_rhs0 (j : S1024x512.Idx) (κ : dot_S1024x512_S512x512_S1024x512_1_0_0_1_n_n.contr.Idx) : (dot_S1024x512_S512x512_S1024x512_1_0_0_1_n_n.rhsIdx j κ 0).val = (κ ⟨0, by decide⟩).val :=
  dot_S1024x512_S512x512_S1024x512_1_0_0_1_n_n.rhsIdx_val_of_single rfl j κ
/-- and at the output's column. -/
theorem blockDot_rhs1 (j : S1024x512.Idx) (κ : dot_S1024x512_S512x512_S1024x512_1_0_0_1_n_n.contr.Idx) : (dot_S1024x512_S512x512_S1024x512_1_0_0_1_n_n.rhsIdx j κ 1).val = (j 1).val := by
  unfold DotDims.rhsIdx
  rw [dif_neg (show ¬(1 : Fin S512x512.rank) ∈ dot_S1024x512_S512x512_S1024x512_1_0_0_1_n_n.rhsBatch by decide),
    dif_pos (show (1 : Fin S512x512.rank) ∈ dot_S1024x512_S512x512_S1024x512_1_0_0_1_n_n.rhsNonContracting by decide)]
  rfl

/-- The kernel's block product at (p, q): the sum over the features of row `p` of the first block times row `q` of the second. -/
theorem blockDot (b0 : FVec Ideal S1024x512 .f32) (b1 : FVec Ideal S512x512 .f32) (p : Fin 1024) (q : Fin 512) :
    matmul (F := Ideal) dot_S1024x512_S512x512_S1024x512_1_0_0_1_n_n none (truncf .bf16 b0 bitsLt_bf16_f32)
        (transpose S512x512 [1, 0] (truncf .bf16 b1 bitsLt_bf16_f32) transposes_S512x512_p1_0_S512x512)
        (constant S1024x512 .f32 0x00000000#32) (ix2 p q)
      = ∑ k : Fin 512, b0 (ix2 p k) * b1 (ix2 q k) := by
  refine (Ideal.matmul_constant_zero_apply dot_S1024x512_S512x512_S1024x512_1_0_0_1_n_n none _ _ (ix2 p q)).trans ?_
  rw [← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 p q) ((contrEquiv1 dot_S1024x512_S512x512_S1024x512_1_0_0_1_n_n 512 rfl rfl).symm k) = ix2 p k := funext fun a => Fin.ext (by
    match a with
    | ⟨0, _⟩ => exact blockDot_lhs0 _ _
    | ⟨1, _⟩ => exact (blockDot_lhs1 _ _).trans hk)
  have er : dot_S1024x512_S512x512_S1024x512_1_0_0_1_n_n.rhsIdx (ix2 p q) ((contrEquiv1 dot_S1024x512_S512x512_S1024x512_1_0_0_1_n_n 512 rfl rfl).symm k) = ix2 k q := funext fun a => Fin.ext (by
    match a with
    | ⟨0, _⟩ => exact (blockDot_rhs0 _ _).trans hk
    | ⟨1, _⟩ => exact blockDot_rhs1 _ _)
  rw [el, er]
  exact congrArg (b0 (ix2 p k) * ·) (ValueIdx.transpose_ix2_apply (truncf .bf16 b1 bitsLt_bf16_f32) transposes_S512x512_p1_0_S512x512 k q)

/-- The reference's product at (r, col): the sum over the features of row `r` of the first array times row `col` of the second. -/
theorem refDot (X0 X1 : (⟨2, ![8192, 512]⟩ : Shape).Idx → Ideal .f32) (r col : Fin 8192) :
    val_main_v10 (F := Ideal) X0 X1 (ix2 r col) = ∑ k : Fin 512, X0 (ix2 r k) * X1 (ix2 col k) := by
  rw [val_main_v10_apply]
  refine Finset.sum_congr rfl fun k _ => ?_
  rw [val_main_v9_apply]
  have e0 : lidx_main_v10 (ix2 r col) k = ix2 r k := funext fun a => Fin.ext (by match a with | ⟨0, _⟩ => rfl | ⟨1, _⟩ => rfl)
  have e1 : idx_main_v9 (ridx_main_v10 (ix2 r col) k) = ix2 col k := funext fun a => Fin.ext (by match a with | ⟨0, _⟩ => rfl | ⟨1, _⟩ => rfl)
  rw [e0, e1]

/-- One entry of the distance matrix: the kernel's block entry (p, q) is the reference's entry (r, col) when the blocks
    hold rows `r` and `col` of the embedding arrays and their squared norms. -/
theorem dist_eq (X0 X1 : (⟨2, ![8192, 512]⟩ : Shape).Idx → Ideal .f32)
    (b0 : FVec Ideal S1024x512 .f32) (b1 : FVec Ideal S512x512 .f32) (b2 : FVec Ideal S1024x1 .f32) (b3 : FVec Ideal S1x512 .f32)
    (r col : Fin 8192) (p : Fin 1024) (q : Fin 512)
    (h0 : ∀ k : Fin 512, b0 (ix2 p k) = X0 (ix2 r k)) (h1 : ∀ k : Fin 512, b1 (ix2 q k) = X1 (ix2 col k))
    (h2 : b2 (ix2 p (0 : Fin 1)) = val_main_v1 (F := Ideal) X0 (ix1 r))
    (h3 : b3 (ix2 (0 : Fin 1) q) = val_main_v3 (F := Ideal) X1 (ix1 col)) :
    k0_pay9 (F := Ideal) b0 b1 b2 b3 (ix2 p q) = val_main_v16 (F := Ideal) X0 X1 (ix2 r col) := by
  have hm := blockDot b0 b1 p q
  have ha : broadcastTo S1024x512 (shapeCast S1024x1 b2 shapeCasts_S1024x1_S1024x1) broadcasts_S1024x1_S1024x512 (ix2 p q)
      = val_main_v1 (F := Ideal) X0 (ix1 r) := by
    rw [shapeCast_self]
    exact (broadcastTo_col_apply b2 broadcasts_S1024x1_S1024x512 p q).trans h2
  have hb : broadcastTo S1024x512 (shapeCast S1x512 b3 shapeCasts_S1x512_S1x512) broadcasts_S1x512_S1024x512 (ix2 p q)
      = val_main_v3 (F := Ideal) X1 (ix1 col) := by
    rw [shapeCast_self]
    exact (ValueIdx.broadcastTo_1b_ab_apply b3 broadcasts_S1x512_S1024x512 p q).trans h3
  have e4 : idx_main_v4 (idx_main_v6 (ix2 r col)) = ix1 r := funext fun a => Fin.ext (by match a with | ⟨0, _⟩ => rfl)
  have e5 : idx_main_v5 (idx_main_v7 (ix2 r col)) = ix1 col := funext fun a => Fin.ext (by match a with | ⟨0, _⟩ => rfl)
  rw [val_main_v16_apply, val_main_v15_apply, val_main_v13_apply, val_main_v8_apply, val_main_v6_apply, val_main_v4_apply,
    val_main_v7_apply, val_main_v5_apply, val_main_v12_apply, val_main_v11_apply, val_main_cst_1_apply, val_main_v14_apply,
    val_main_cst_2_apply, refDot, e4, e5]
  show Ideal.sqrt (max ((broadcastTo S1024x512 (shapeCast S1024x1 b2 shapeCasts_S1024x1_S1024x1) broadcasts_S1024x1_S1024x512 (ix2 p q)
      + broadcastTo S1024x512 (shapeCast S1x512 b3 shapeCasts_S1x512_S1x512) broadcasts_S1x512_S1024x512 (ix2 p q))
      - Ideal.ofBits .f32 0x40000000#32 * matmul (F := Ideal) dot_S1024x512_S512x512_S1024x512_1_0_0_1_n_n none (truncf .bf16 b0 bitsLt_bf16_f32)
        (transpose S512x512 [1, 0] (truncf .bf16 b1 bitsLt_bf16_f32) transposes_S512x512_p1_0_S512x512)
        (constant S1024x512 .f32 0x00000000#32) (ix2 p q)) (Ideal.ofBits .f32 0x2B8CBCCC#32)) = _
  rw [hm, ha, hb]
  simp only [h0, h1]
  rfl

end Cert.Triplet

end
-- ==== Proof.Masks.lean ====
/-
  One entry of the two masks, on both sides.

  The positive mask at (r, col) says that rows `r` and `col` carry the same label and `r ≠ col`; the negative mask says
  the labels differ.  The reference compares the labels broadcast along rows and columns and builds the diagonal from
  two index grids; the kernel compares the label blocks and builds the diagonal from the block's offsets plus the
  position inside the block, in 32-bit arithmetic — the same words, since offset·size + position is the global index.
  "Not equal" and the negation of "equal" are one bit, and a bit flipped by `xor` with the set bit is its negation.
-/
import proofs.«129636_j25451976196909_1_alg».proof.Proof.Gen.KernelIdeal.Skeleton
import proofs.«129636_j25451976196909_1_alg».proof.Proof.RefRead
import proofs.«129636_j25451976196909_1_alg».proof.Proof.RowOps
import proofs.«129636_j25451976196909_1_alg».proof.Proof.Flags

noncomputable section

namespace Cert.Triplet

open Idealize.ShloMosaic Idealize.ShloMosaic.ValueIdx
open Cert.KernelIdeal Cert.KernelIdeal.Gen
open Cert.ReferenceIdeal.ReadP (val_main_v17 val_main_v18 val_main_v19 val_main_v20 val_main_v21 val_main_v22 val_main_v23 val_main_v24
  val_main_v25 val_main_v26 val_main_v27 val_main_v28 val_main_v29 val_main_c
  val_main_v17_apply val_main_v18_apply val_main_v19_apply val_main_v20_apply val_main_v21_apply val_main_v22_apply val_main_v23_apply
  val_main_v24_apply val_main_v25_apply val_main_v26_apply val_main_v27_apply val_main_v28_apply val_main_v29_apply val_main_c_apply
  idx_main_v17 idx_main_v18 idx_main_v19 idx_main_v20 idx_main_v24)

/-- "Not equal" is the negation of "equal", as one-bit words. -/
theorem cmpi_ne_eq_not (x y : BitVec 32) : IntOp.cmpi .ne x y = ~~~(IntOp.cmpi .eq x y) := by
  unfold IntOp.cmpi
  show BitVec.ofBool (!(x == y)) = ~~~BitVec.ofBool (x == y)
  cases (x == y) <;> rfl

/-- A mask bit flipped by `xor` with the set bit is its negation. -/
theorem xori_one_eq_not (a : BitVec 1) : IntOp.xori a 1#1 = ~~~a := by
  revert a; decide

/-- The equal-label bit: the kernel's block entry (p, q) is the reference's entry (r, col) when the label blocks hold the
    labels of rows `r` and `col`. -/
theorem same_eq (X2 : (⟨1, ![8192]⟩ : Shape).Idx → BitVec 32) (b4 : IVec S1024x1 32) (b5 : IVec S1x512 32)
    (r col : Fin 8192) (p : Fin 1024) (q : Fin 512)
    (h4 : b4 (ix2 p (0 : Fin 1)) = X2 (ix1 r)) (h5 : b5 (ix2 (0 : Fin 1) q) = X2 (ix1 col)) :
    k0_pay10 (F := Ideal) b4 b5 (ix2 p q) = val_main_v21 (F := Ideal) X2 (ix2 r col) := by
  have ha : broadcastTo S1024x512 (shapeCast S1024x1 b4 shapeCasts_S1024x1_S1024x1) broadcasts_S1024x1_S1024x512 (ix2 p q)
      = X2 (ix1 r) := by
    rw [shapeCast_self]
    exact (broadcastTo_col_apply b4 broadcasts_S1024x1_S1024x512 p q).trans h4
  have hb : broadcastTo S1024x512 (shapeCast S1x512 b5 shapeCasts_S1x512_S1x512) broadcasts_S1x512_S1024x512 (ix2 p q)
      = X2 (ix1 col) := by
    rw [shapeCast_self]
    exact (ValueIdx.broadcastTo_1b_ab_apply b5 broadcasts_S1x512_S1024x512 p q).trans h5
  have e1 : idx_main_v17 (idx_main_v19 (ix2 r col)) = ix1 r := funext fun a => Fin.ext (by match a with | ⟨0, _⟩ => rfl)
  have e2 : idx_main_v18 (idx_main_v20 (ix2 r col)) = ix1 col := funext fun a => Fin.ext (by match a with | ⟨0, _⟩ => rfl)
  rw [val_main_v21_apply, val_main_v19_apply, val_main_v17_apply, val_main_v20_apply, val_main_v18_apply, e1, e2]
  show IntOp.cmpi .eq (broadcastTo S1024x512 (shapeCast S1024x1 b4 shapeCasts_S1024x1_S1024x1) broadcasts_S1024x1_S1024x512 (ix2 p q))
      (broadcastTo S1024x512 (shapeCast S1x512 b5 shapeCasts_S1x512_S1x512) broadcasts_S1x512_S1024x512 (ix2 p q)) = _
  rw [ha, hb]

/-- The off-diagonal bit: at block offsets (i₀, i₁), the kernel's entry (p, q) is the reference's entry (r, col) for
    `r = 1024·i₀ + p` and `col = 512·i₁ + q`. -/
theorem notSelf_eq (i : grid0.Coords) (r col : Fin 8192) (p : Fin 1024) (q : Fin 512)
    (hr : r.val = (i 0).val * 1024 + p.val) (hc : col.val = (i 1).val * 512 + q.val) :
    k0_pay11 i (ix2 p q) = val_main_v27 (F := Ideal) (ix2 r col) := by
  have i0 := iota_single_apply .tc S1024x512 32 0 iota_S1024x512_d0_w32 (ix2 p q)
  have i1 := iota_single_apply .tc S1024x512 32 1 iota_S1024x512_d1_w32 (ix2 p q)
  rw [val_main_v27_apply, val_main_v26_apply, val_main_v25_apply, val_main_v22_apply, val_main_v24_apply, val_main_c_apply,
    val_main_v23_apply]
  show IntOp.cmpi .ne (BitVec.ofNat 32 (i 0).val * 1024#32 + iota .tc S1024x512 32 [0] iota_S1024x512_d0_w32 (ix2 p q))
      (BitVec.ofNat 32 (i 1).val * 512#32 + iota .tc S1024x512 32 [1] iota_S1024x512_d1_w32 (ix2 p q))
    = ~~~IntOp.cmpi .eq (BitVec.ofNat 32 r.val + 0#32) (BitVec.ofNat 32 col.val)
  rw [i0, i1, cmpi_ne_eq_not, hr, hc]
  show ~~~IntOp.cmpi .eq (BitVec.ofNat 32 (i 0).val * BitVec.ofNat 32 1024 + BitVec.ofNat 32 p.val)
      (BitVec.ofNat 32 (i 1).val * BitVec.ofNat 32 512 + BitVec.ofNat 32 q.val) = _
  rw [BitVec.add_zero, BitVec.ofNat_add, BitVec.ofNat_add, BitVec.ofNat_mul, BitVec.ofNat_mul]

/-- The positive mask's bit. -/
theorem pos_eq (X2 : (⟨1, ![8192]⟩ : Shape).Idx → BitVec 32) (i : grid0.Coords) (b4 : IVec S1024x1 32) (b5 : IVec S1x512 32)
    (r col : Fin 8192) (p : Fin 1024) (q : Fin 512)
    (h4 : b4 (ix2 p (0 : Fin 1)) = X2 (ix1 r)) (h5 : b5 (ix2 (0 : Fin 1) q) = X2 (ix1 col))
    (hr : r.val = (i 0).val * 1024 + p.val) (hc : col.val = (i 1).val * 512 + q.val) :
    k0_pay12 (k0_pay10 (F := Ideal) b4 b5) (k0_pay11 i) (ix2 p q) = val_main_v28 (F := Ideal) X2 (ix2 r col) := by
  rw [val_main_v28_apply, ← same_eq X2 b4 b5 r col p q h4 h5, ← notSelf_eq i r col p q hr hc]
  rfl

/-- The negative mask's bit. -/
theorem neg_eq (X2 : (⟨1, ![8192]⟩ : Shape).Idx → BitVec 32) (b4 : IVec S1024x1 32) (b5 : IVec S1x512 32)
    (r col : Fin 8192) (p : Fin 1024) (q : Fin 512)
    (h4 : b4 (ix2 p (0 : Fin 1)) = X2 (ix1 r)) (h5 : b5 (ix2 (0 : Fin 1) q) = X2 (ix1 col)) :
    k0_pay13 (k0_pay10 (F := Ideal) b4 b5) (ix2 p q) = val_main_v29 (F := Ideal) X2 (ix2 r col) := by
  rw [val_main_v29_apply, ← same_eq X2 b4 b5 r col p q h4 h5]
  exact xori_one_eq_not _

end Cert.Triplet

end
-- ==== Proof.Pieces.lean ====
/-
  What one grid point leaves behind, as values.

  The kernel keeps four columns of 1024 numbers between the grid points of one row block: the running maximum of the
  masked positive distances, the running minimum of the masked negative distances, and two running maxima of the
  masks themselves read as numbers.  At a point it loads the blocks of the six operands, computes the block's distances
  and masks, and replaces each accumulator by its combination with the block's row-wise extreme (`updPos`, `updNeg`,
  `updAnyPos`, `updAnyNeg` below: the body's arithmetic, taken as it is printed).  At the first point of a row block the
  accumulators are first reset (to −∞, +∞, 0, 0); at the last one the loss column and the validity column are computed
  from the updated accumulators and stored.  The lemmas below read these facts off the three runs of the body (first,
  middle, last point of a row block): each accumulator's buffer, and at the last point each output's, is covered by the
  body's last store into it, whose value is the named combination.
-/
import proofs.«129636_j25451976196909_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The block's distances: √(max(‖a‖² + ‖b‖² − 2·a·b, ε)) for each row of the first block against each row of the second. -/
abbrev dists (x0 : Vec F S1024x512 .f32) (x1 : Vec F S512x512 .f32) (x2 : Vec F S1024x1 .f32) (x3 : Vec F S1x512 .f32) :
    FVec F S1024x512 .f32 := k0_pay9 x0 x1 x2 x3

/-- The block's mask of equal labels. -/
abbrev sameLabel (x4 : Vec F S1024x1 .i32) (x5 : Vec F S1x512 .i32) : IVec S1024x512 1 := k0_pay10 (F := F) x4 x5

/-- The running maximum of the positive distances, updated with one block. -/
def updPos (i : grid0.Coords) (x0 : Vec F S1024x512 .f32) (x1 : Vec F S512x512 .f32) (x2 : Vec F S1024x1 .f32) (x3 : Vec F S1x512 .f32)
    (x4 : Vec F S1024x1 .i32) (x5 : Vec F S1x512 .i32) (old : Vec F S1024x1 .f32) : Vec F S1024x1 .f32 :=
  k0_pay14 (k0_pay9 x0 x1 x2 x3) (k0_pay10 (F := F) x4 x5) (k0_pay11 i) old

/-- The running minimum of the negative distances, updated with one block. -/
def updNeg (x0 : Vec F S1024x512 .f32) (x1 : Vec F S512x512 .f32) (x2 : Vec F S1024x1 .f32) (x3 : Vec F S1x512 .f32)
    (x4 : Vec F S1024x1 .i32) (x5 : Vec F S1x512 .i32) (old : Vec F S1024x1 .f32) : Vec F S1024x1 .f32 :=
  k0_pay15 (k0_pay9 x0 x1 x2 x3) (k0_pay10 (F := F) x4 x5) old

/-- The running "some positive column seen", updated with one block. -/
def updAnyPos (i : grid0.Coords) (x4 : Vec F S1024x1 .i32) (x5 : Vec F S1x512 .i32) (old : Vec F S1024x1 .f32) : Vec F S1024x1 .f32 :=
  k0_pay16 (k0_pay10 (F := F) x4 x5) (k0_pay11 i) old

/-- The running "some negative column seen", updated with one block. -/
def updAnyNeg (x4 : Vec F S1024x1 .i32) (x5 : Vec F S1x512 .i32) (old : Vec F S1024x1 .f32) : Vec F S1024x1 .f32 :=
  k0_pay1 (k0_pay17 (k0_pay10 (F := F) x4 x5) old)

/-- Case A (the first point of a row block) leaves accumulator 0 at its update of the reset value. -/
theorem pos_A (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (hc0 : cond0_0 i) (hc1 : ¬cond0_1 i) (x0 : Vec F S1024x512 .f32) (x1 : Vec F S512x512 .f32) (x2 : Vec F S1024x1 .f32) (x3 : Vec F S1x512 .f32) (x4 : Vec F S1024x1 .i32) (x5 : Vec F S1x512 .i32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = updPos i x0 x1 x2 x3 x4 x5 (k0_pay5 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero (S := S1024x1) hz]
  simp only [View.readCov_unit_zero (S := S1024x1) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x1) hz, View.ld_unit_zero (S := S1024x512) hz, View.ld_unit_zero (S := S512x512) hz, View.ld_unit_zero (S := S1x512) hz]
  rfl

/-- Case A (the first point of a row block) leaves accumulator 1 at its update of the reset value. -/
theorem neg_A (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (hc0 : cond0_0 i) (hc1 : ¬cond0_1 i) (x0 : Vec F S1024x512 .f32) (x1 : Vec F S512x512 .f32) (x2 : Vec F S1024x1 .f32) (x3 : Vec F S1x512 .f32) (x4 : Vec F S1024x1 .i32) (x5 : Vec F S1x512 .i32) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = updNeg x0 x1 x2 x3 x4 x5 (k0_pay6 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero (S := S1024x1) hz]
  simp only [View.readCov_unit_zero (S := S1024x1) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x1) hz, View.ld_unit_zero (S := S1024x512) hz, View.ld_unit_zero (S := S512x512) hz, View.ld_unit_zero (S := S1x512) hz]
  rfl

/-- Case A (the first point of a row block) leaves accumulator 2 at its update of the reset value. -/
theorem anyPos_A (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (hc0 : cond0_0 i) (hc1 : ¬cond0_1 i) (x0 : Vec F S1024x512 .f32) (x1 : Vec F S512x512 .f32) (x2 : Vec F S1024x1 .f32) (x3 : Vec F S1x512 .f32) (x4 : Vec F S1024x1 .i32) (x5 : Vec F S1x512 .i32) :
    sout0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = updAnyPos i x4 x5 (k0_pay7 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero (S := S1024x1) hz]
  simp only [View.readCov_unit_zero (S := S1024x1) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x1) hz, View.ld_unit_zero (S := S1024x512) hz, View.ld_unit_zero (S := S512x512) hz, View.ld_unit_zero (S := S1x512) hz]
  rfl

/-- Case A (the first point of a row block) leaves accumulator 3 at its update of the reset value. -/
theorem anyNeg_A (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (hc0 : cond0_0 i) (hc1 : ¬cond0_1 i) (x0 : Vec F S1024x512 .f32) (x1 : Vec F S512x512 .f32) (x2 : Vec F S1024x1 .f32) (x3 : Vec F S1x512 .f32) (x4 : Vec F S1024x1 .i32) (x5 : Vec F S1x512 .i32) :
    sout0_A_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = updAnyNeg x4 x5 (k0_pay8 (F := F)) := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero (S := S1024x1) hz]
  simp only [View.readCov_unit_zero (S := S1024x1) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x1) hz, View.ld_unit_zero (S := S1024x512) hz, View.ld_unit_zero (S := S512x512) hz, View.ld_unit_zero (S := S1x512) hz]
  rfl

/-- Case B (a middle point of a row block) leaves accumulator 0 at its update. -/
theorem pos_B (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (hc0 : ¬cond0_0 i) (hc1 : ¬cond0_1 i) (x0 : Vec F S1024x512 .f32) (x1 : Vec F S512x512 .f32) (x2 : Vec F S1024x1 .f32) (x3 : Vec F S1x512 .f32) (x4 : Vec F S1024x1 .i32) (x5 : Vec F S1x512 .i32) (xs0 : Vec F S1024x1 .f32) (xs1 : Vec F S1024x1 .f32) (xs2 : Vec F S1024x1 .f32) (xs3 : Vec F S1024x1 .f32) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = updPos i x0 x1 x2 x3 x4 x5 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun0_B
  dsimp only
  sl_unfold_words
  rw [View.canon_unit_zero hz]
  simp only [View.readCov_unit_zero (S := S1024x1) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x1) hz, View.ld_unit_zero (S := S1024x512) hz, View.ld_unit_zero (S := S512x512) hz, View.ld_unit_zero (S := S1x512) hz]
  rfl

/-- Case B (a middle point of a row block) leaves accumulator 1 at its update. -/
theorem neg_B (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (hc0 : ¬cond0_0 i) (hc1 : ¬cond0_1 i) (x0 : Vec F S1024x512 .f32) (x1 : Vec F S512x512 .f32) (x2 : Vec F S1024x1 .f32) (x3 : Vec F S1x512 .f32) (x4 : Vec F S1024x1 .i32) (x5 : Vec F S1x512 .i32) (xs0 : Vec F S1024x1 .f32) (xs1 : Vec F S1024x1 .f32) (xs2 : Vec F S1024x1 .f32) (xs3 : Vec F S1024x1 .f32) :
    sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = updNeg x0 x1 x2 x3 x4 x5 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun0_B
  dsimp only
  sl_unfold_words
  rw [View.canon_unit_zero hz]
  simp only [View.readCov_unit_zero (S := S1024x1) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x1) hz, View.ld_unit_zero (S := S1024x512) hz, View.ld_unit_zero (S := S512x512) hz, View.ld_unit_zero (S := S1x512) hz]
  rfl

/-- Case B (a middle point of a row block) leaves accumulator 2 at its update. -/
theorem anyPos_B (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (hc0 : ¬cond0_0 i) (hc1 : ¬cond0_1 i) (x0 : Vec F S1024x512 .f32) (x1 : Vec F S512x512 .f32) (x2 : Vec F S1024x1 .f32) (x3 : Vec F S1x512 .f32) (x4 : Vec F S1024x1 .i32) (x5 : Vec F S1x512 .i32) (xs0 : Vec F S1024x1 .f32) (xs1 : Vec F S1024x1 .f32) (xs2 : Vec F S1024x1 .f32) (xs3 : Vec F S1024x1 .f32) :
    sout0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = updAnyPos i x4 x5 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun0_B
  dsimp only
  sl_unfold_words
  rw [View.canon_unit_zero hz]
  simp only [View.readCov_unit_zero (S := S1024x1) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x1) hz, View.ld_unit_zero (S := S1024x512) hz, View.ld_unit_zero (S := S512x512) hz, View.ld_unit_zero (S := S1x512) hz]
  rfl

/-- Case B (a middle point of a row block) leaves accumulator 3 at its update. -/
theorem anyNeg_B (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (hc0 : ¬cond0_0 i) (hc1 : ¬cond0_1 i) (x0 : Vec F S1024x512 .f32) (x1 : Vec F S512x512 .f32) (x2 : Vec F S1024x1 .f32) (x3 : Vec F S1x512 .f32) (x4 : Vec F S1024x1 .i32) (x5 : Vec F S1x512 .i32) (xs0 : Vec F S1024x1 .f32) (xs1 : Vec F S1024x1 .f32) (xs2 : Vec F S1024x1 .f32) (xs3 : Vec F S1024x1 .f32) :
    sout0_B_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = updAnyNeg x4 x5 xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun0_B
  dsimp only
  sl_unfold_words
  rw [View.canon_unit_zero hz]
  simp only [View.readCov_unit_zero (S := S1024x1) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x1) hz, View.ld_unit_zero (S := S1024x512) hz, View.ld_unit_zero (S := S512x512) hz, View.ld_unit_zero (S := S1x512) hz]
  rfl

/-- Case C (the last point of a row block) leaves accumulator 0 at its update. -/
theorem pos_C (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (hc0 : ¬cond0_0 i) (hc1 : cond0_1 i) (x0 : Vec F S1024x512 .f32) (x1 : Vec F S512x512 .f32) (x2 : Vec F S1024x1 .f32) (x3 : Vec F S1x512 .f32) (x4 : Vec F S1024x1 .i32) (x5 : Vec F S1x512 .i32) (xs0 : Vec F S1024x1 .f32) (xs1 : Vec F S1024x1 .f32) (xs2 : Vec F S1024x1 .f32) (xs3 : Vec F S1024x1 .f32) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = updPos i x0 x1 x2 x3 x4 x5 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun0_C
  dsimp only
  sl_unfold_words
  rw [View.canon_unit_zero hz]
  simp only [View.readCov_unit_zero (S := S1024x1) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x1) hz, View.ld_unit_zero (S := S1024x512) hz, View.ld_unit_zero (S := S512x512) hz, View.ld_unit_zero (S := S1x512) hz]
  rfl

/-- Case C (the last point of a row block) leaves accumulator 1 at its update. -/
theorem neg_C (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (hc0 : ¬cond0_0 i) (hc1 : cond0_1 i) (x0 : Vec F S1024x512 .f32) (x1 : Vec F S512x512 .f32) (x2 : Vec F S1024x1 .f32) (x3 : Vec F S1x512 .f32) (x4 : Vec F S1024x1 .i32) (x5 : Vec F S1x512 .i32) (xs0 : Vec F S1024x1 .f32) (xs1 : Vec F S1024x1 .f32) (xs2 : Vec F S1024x1 .f32) (xs3 : Vec F S1024x1 .f32) :
    sout0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = updNeg x0 x1 x2 x3 x4 x5 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun0_C
  dsimp only
  sl_unfold_words
  rw [View.canon_unit_zero hz]
  simp only [View.readCov_unit_zero (S := S1024x1) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x1) hz, View.ld_unit_zero (S := S1024x512) hz, View.ld_unit_zero (S := S512x512) hz, View.ld_unit_zero (S := S1x512) hz]
  rfl

/-- Case C (the last point of a row block) leaves accumulator 2 at its update. -/
theorem anyPos_C (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (hc0 : ¬cond0_0 i) (hc1 : cond0_1 i) (x0 : Vec F S1024x512 .f32) (x1 : Vec F S512x512 .f32) (x2 : Vec F S1024x1 .f32) (x3 : Vec F S1x512 .f32) (x4 : Vec F S1024x1 .i32) (x5 : Vec F S1x512 .i32) (xs0 : Vec F S1024x1 .f32) (xs1 : Vec F S1024x1 .f32) (xs2 : Vec F S1024x1 .f32) (xs3 : Vec F S1024x1 .f32) :
    sout0_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = updAnyPos i x4 x5 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun0_C
  dsimp only
  sl_unfold_words
  rw [View.canon_unit_zero hz]
  simp only [View.readCov_unit_zero (S := S1024x1) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x1) hz, View.ld_unit_zero (S := S1024x512) hz, View.ld_unit_zero (S := S512x512) hz, View.ld_unit_zero (S := S1x512) hz]
  rfl

/-- Case C (the last point of a row block) leaves accumulator 3 at its update. -/
theorem anyNeg_C (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (hc0 : ¬cond0_0 i) (hc1 : cond0_1 i) (x0 : Vec F S1024x512 .f32) (x1 : Vec F S512x512 .f32) (x2 : Vec F S1024x1 .f32) (x3 : Vec F S1x512 .f32) (x4 : Vec F S1024x1 .i32) (x5 : Vec F S1x512 .i32) (xs0 : Vec F S1024x1 .f32) (xs1 : Vec F S1024x1 .f32) (xs2 : Vec F S1024x1 .f32) (xs3 : Vec F S1024x1 .f32) :
    sout0_C_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = updAnyNeg x4 x5 xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun0_C
  dsimp only
  sl_unfold_words
  rw [View.canon_unit_zero hz]
  simp only [View.readCov_unit_zero (S := S1024x1) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x1) hz, View.ld_unit_zero (S := S1024x512) hz, View.ld_unit_zero (S := S512x512) hz, View.ld_unit_zero (S := S1x512) hz]
  rfl

/-- At the last point the loss column is the hinge of the updated accumulators, gated by the updated validity. -/
theorem loss_C (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (hc0 : ¬cond0_0 i) (hc1 : cond0_1 i) (x0 : Vec F S1024x512 .f32) (x1 : Vec F S512x512 .f32) (x2 : Vec F S1024x1 .f32) (x3 : Vec F S1x512 .f32) (x4 : Vec F S1024x1 .i32) (x5 : Vec F S1x512 .i32) (xs0 : Vec F S1024x1 .f32) (xs1 : Vec F S1024x1 .f32) (xs2 : Vec F S1024x1 .f32) (xs3 : Vec F S1024x1 .f32) :
    out0_C_6 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3
      = k0_pay3 (updAnyPos i x4 x5 xs2) (updAnyNeg x4 x5 xs3) (updPos i x0 x1 x2 x3 x4 x5 xs0) (updNeg x0 x1 x2 x3 x4 x5 xs1) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun0_C
  dsimp only
  sl_unfold_words
  rw [View.canon_unit_zero hz]
  simp only [View.readCov_unit_zero (S := S1024x1) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x1) hz, View.ld_unit_zero (S := S1024x512) hz, View.ld_unit_zero (S := S512x512) hz, View.ld_unit_zero (S := S1x512) hz]
  rfl

/-- At the last point the validity column is the updated validity read as a number. -/
theorem valid_C (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (hc0 : ¬cond0_0 i) (hc1 : cond0_1 i) (x0 : Vec F S1024x512 .f32) (x1 : Vec F S512x512 .f32) (x2 : Vec F S1024x1 .f32) (x3 : Vec F S1x512 .f32) (x4 : Vec F S1024x1 .i32) (x5 : Vec F S1x512 .i32) (xs0 : Vec F S1024x1 .f32) (xs1 : Vec F S1024x1 .f32) (xs2 : Vec F S1024x1 .f32) (xs3 : Vec F S1024x1 .f32) :
    out0_C_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3
      = k0_pay4 (updAnyPos i x4 x5 xs2) (updAnyNeg x4 x5 xs3) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun0_C
  dsimp only
  sl_unfold_words
  rw [View.canon_unit_zero hz]
  simp only [View.readCov_unit_zero (S := S1024x1) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x1) hz, View.ld_unit_zero (S := S1024x512) hz, View.ld_unit_zero (S := S512x512) hz, View.ld_unit_zero (S := S1x512) hz]
  rfl

end Cert.KernelIdeal.Pieces

end
-- ==== Proof.BlockRows.lean ====
/-
  One block's contribution to a row's accumulators.

  At the ideal values the four accumulator updates are read at row `p` of the block: the running maximum becomes the
  larger of its old value and the maximum, from −∞, of the row's 512 masked distances (a distance where the positive
  mask is set, −∞ elsewhere); the running minimum the smaller of its old value and the minimum, from +∞, of the row's
  distances masked by the negative mask (+∞ elsewhere); and the two "seen" accumulators the larger of their old values and
  the maximum, from −∞, of the row's mask bits read as the numbers 0 and 1.
-/
import proofs.«129636_j25451976196909_1_alg».proof.Proof.Pieces
import proofs.«129636_j25451976196909_1_alg».proof.Proof.RowOps
import proofs.«129636_j25451976196909_1_alg».proof.Proof.Flags

noncomputable section

namespace Cert.Triplet

open Idealize.ShloMosaic Idealize.ShloMosaic.ValueIdx
open Cert.KernelIdeal Cert.KernelIdeal.Gen Cert.KernelIdeal.Pieces

/-- −∞, +∞ and 0 as the programs spell them. -/
abbrev NEG : Ideal .f32 := Ideal.ofBits .f32 0xFF800000#32
abbrev POS : Ideal .f32 := Ideal.ofBits .f32 0x7F800000#32
abbrev ZERO : Ideal .f32 := Ideal.ofBits .f32 0x00000000#32

/-- The block's positive mask and negative mask. -/
abbrev posMask (i : grid0.Coords) (b4 : IVec S1024x1 32) (b5 : IVec S1x512 32) : IVec S1024x512 1 :=
  k0_pay12 (k0_pay10 (F := Ideal) b4 b5) (k0_pay11 i)
abbrev negMask (b4 : IVec S1024x1 32) (b5 : IVec S1x512 32) : IVec S1024x512 1 :=
  k0_pay13 (k0_pay10 (F := Ideal) b4 b5)

/-- A row's masked distances. -/
def posEntry (i : grid0.Coords) (b0 : FVec Ideal S1024x512 .f32) (b1 : FVec Ideal S512x512 .f32) (b2 : FVec Ideal S1024x1 .f32)
    (b3 : FVec Ideal S1x512 .f32) (b4 : IVec S1024x1 32) (b5 : IVec S1x512 32) (p : Fin 1024) (q : Fin 512) : Ideal .f32 :=
  Scalar.select (posMask i b4 b5 (ix2 p q)) (k0_pay9 (F := Ideal) b0 b1 b2 b3 (ix2 p q)) NEG
def negEntry (b0 : FVec Ideal S1024x512 .f32) (b1 : FVec Ideal S512x512 .f32) (b2 : FVec Ideal S1024x1 .f32)
    (b3 : FVec Ideal S1x512 .f32) (b4 : IVec S1024x1 32) (b5 : IVec S1x512 32) (p : Fin 1024) (q : Fin 512) : Ideal .f32 :=
  Scalar.select (negMask b4 b5 (ix2 p q)) (k0_pay9 (F := Ideal) b0 b1 b2 b3 (ix2 p q)) POS

theorem updPos_apply (i : grid0.Coords) (b0 : FVec Ideal S1024x512 .f32) (b1 : FVec Ideal S512x512 .f32) (b2 : FVec Ideal S1024x1 .f32)
    (b3 : FVec Ideal S1x512 .f32) (b4 : IVec S1024x1 32) (b5 : IVec S1x512 32) (old : FVec Ideal S1024x1 .f32) (p : Fin 1024) :
    updPos (F := Ideal) i b0 b1 b2 b3 b4 b5 old (ix2 p (0 : Fin 1))
      = max (old (ix2 p (0 : Fin 1))) ((Finset.univ : Finset (Fin 512)).fold max NEG (fun q => posEntry i b0 b1 b2 b3 b4 b5 p q)) := by
  unfold updPos k0_pay14
  refine (congrFun (shapeCast_self _ _) _).trans ?_
  refine congrArg (max (old (ix2 p (0 : Fin 1)))) ?_
  refine (shapeCast_col_apply _ shapeCasts_S1024_S1024x1 p 0).trans ?_
  exact laneMax_row _ _ reduces_S1024x512_S1024 (.inl rfl) rfl p

theorem updNeg_apply (b0 : FVec Ideal S1024x512 .f32) (b1 : FVec Ideal S512x512 .f32) (b2 : FVec Ideal S1024x1 .f32)
    (b3 : FVec Ideal S1x512 .f32) (b4 : IVec S1024x1 32) (b5 : IVec S1x512 32) (old : FVec Ideal S1024x1 .f32) (p : Fin 1024) :
    updNeg (F := Ideal) b0 b1 b2 b3 b4 b5 old (ix2 p (0 : Fin 1))
      = min (old (ix2 p (0 : Fin 1))) ((Finset.univ : Finset (Fin 512)).fold min POS (fun q => negEntry b0 b1 b2 b3 b4 b5 p q)) := by
  unfold updNeg k0_pay15
  refine (congrFun (shapeCast_self _ _) _).trans ?_
  refine congrArg (min (old (ix2 p (0 : Fin 1)))) ?_
  refine (shapeCast_col_apply _ shapeCasts_S1024_S1024x1 p 0).trans ?_
  exact laneMin_row _ _ reduces_S1024x512_S1024 (.inl rfl) rfl p

theorem updAnyPos_apply (i : grid0.Coords) (b4 : IVec S1024x1 32) (b5 : IVec S1x512 32) (old : FVec Ideal S1024x1 .f32) (p : Fin 1024) :
    updAnyPos (F := Ideal) i b4 b5 old (ix2 p (0 : Fin 1))
      = max (old (ix2 p (0 : Fin 1))) ((Finset.univ : Finset (Fin 512)).fold max NEG (fun q => flag (posMask i b4 b5 (ix2 p q)))) := by
  unfold updAnyPos k0_pay16
  refine (congrFun (shapeCast_self _ _) _).trans ?_
  refine congrArg (max (old (ix2 p (0 : Fin 1)))) ?_
  refine (shapeCast_col_apply _ shapeCasts_S1024_S1024x1 p 0).trans ?_
  refine (laneMax_row _ _ reduces_S1024x512_S1024 (.inl rfl) rfl p).trans ?_
  exact congrArg (fun g => Finset.fold max NEG g (Finset.univ : Finset (Fin 512))) (funext fun q => sitofp_setWidth _)

theorem updAnyNeg_apply (b4 : IVec S1024x1 32) (b5 : IVec S1x512 32) (old : FVec Ideal S1024x1 .f32) (p : Fin 1024) :
    updAnyNeg (F := Ideal) b4 b5 old (ix2 p (0 : Fin 1))
      = max (old (ix2 p (0 : Fin 1))) ((Finset.univ : Finset (Fin 512)).fold max NEG (fun q => flag (negMask b4 b5 (ix2 p q)))) := by
  unfold updAnyNeg k0_pay1 k0_pay17
  refine (congrFun (shapeCast_self _ _) _).trans ?_
  refine congrArg (max (old (ix2 p (0 : Fin 1)))) ?_
  refine (shapeCast_col_apply _ shapeCasts_S1024_S1024x1 p 0).trans ?_
  refine (laneMax_row _ _ reduces_S1024x512_S1024 (.inl rfl) rfl p).trans ?_
  exact congrArg (fun g => Finset.fold max NEG g (Finset.univ : Finset (Fin 512))) (funext fun q => sitofp_setWidth _)

end Cert.Triplet

end
-- ==== Proof.Entries.lean ====
/-
  A block's entries are the reference's entries.

  At grid point `t`, row `p` of the block is row `1024·(t/16) + p` of the matrices the reference builds, and column `q` is
  their column `512·(t%16) + q`: the masked distances and the two mask bits of the block are the reference's entries there.
-/
import proofs.«129636_j25451976196909_1_alg».proof.Proof.Blocks
import proofs.«129636_j25451976196909_1_alg».proof.Proof.Dist
import proofs.«129636_j25451976196909_1_alg».proof.Proof.Masks
import proofs.«129636_j25451976196909_1_alg».proof.Proof.BlockRows

noncomputable section

open Idealize.ShloMosaic Idealize.ShloMosaic.TcCoe Idealize.SL.Sem Idealize.ShloMosaic.ValueIdx

namespace Cert.KernelIdeal.Blocks

open Cert.KernelIdeal Cert.KernelIdeal.Gen Cert.Triplet
open Cert.ReferenceIdeal.ReadP (val_main_v16 val_main_v28 val_main_v29 val_main_v30 val_main_v32 val_main_call0_v0 val_main_call1_v0
  val_main_v30_apply val_main_v32_apply val_main_call0_v0_apply val_main_call1_v0_apply val_main_cst_3_apply val_main_cst_5_apply)

variable (m : (ℓ : Loc nD τ sig) → Buf (Elt Ideal) ℓ) (c : Dev nD)

/-- The global row of row `p` of the block at point `n`, and the global column of its column `q`. -/
def rowAt (n : ℕ) (p : Fin 1024) : Fin 8192 := ⟨n / 16 % 8 * 1024 + p.val, by have := p.isLt; omega⟩
def colAt (n : ℕ) (q : Fin 512) : Fin 8192 := ⟨n % 16 * 512 + q.val, by have := q.isLt; omega⟩

theorem rowAt_val (t : Fin cfg0.N) (p : Fin 1024) : (rowAt t.val p).val = t.val / 16 * 1024 + p.val := by
  have hN : cfg0.N = 128 := N_0
  have := t.isLt
  show t.val / 16 % 8 * 1024 + p.val = _
  omega
theorem colAt_val (t : Fin cfg0.N) (q : Fin 512) : (colAt t.val q).val = t.val % 16 * 512 + q.val := rfl

theorem rowAt_coords (t : Fin cfg0.N) (p : Fin 1024) : (rowAt t.val p).val = (grid0.coords t 0).val * 1024 + p.val := by
  rw [rowAt_val, (index_facts t).2.2.2.2.2.2.2.2.1]
theorem colAt_coords (t : Fin cfg0.N) (q : Fin 512) : (colAt t.val q).val = (grid0.coords t 1).val * 512 + q.val := by
  rw [colAt_val, (index_facts t).2.2.2.2.2.2.2.2.2]

/-- The positive mask's bit of the block is the reference's. -/
theorem posBit_eq (t : Fin cfg0.N) (p : Fin 1024) (q : Fin 512) :
    posMask (grid0.coords t) (iblk m c 4 t) (iblk m c 5 t) (ix2 p q)
      = val_main_v28 (F := Ideal) (arg2 m c) (ix2 (rowAt t.val p) (colAt t.val q)) :=
  pos_eq (arg2 m c) (grid0.coords t) (iblk m c 4 t) (iblk m c 5 t) (rowAt t.val p) (colAt t.val q) p q
    (blk4 m c t p _ (rowAt_val t p)) (blk5 m c t q _ (colAt_val t q)) (rowAt_coords t p) (colAt_coords t q)

/-- The negative mask's bit of the block is the reference's. -/
theorem negBit_eq (t : Fin cfg0.N) (p : Fin 1024) (q : Fin 512) :
    negMask (iblk m c 4 t) (iblk m c 5 t) (ix2 p q)
      = val_main_v29 (F := Ideal) (arg2 m c) (ix2 (rowAt t.val p) (colAt t.val q)) :=
  neg_eq (arg2 m c) (iblk m c 4 t) (iblk m c 5 t) (rowAt t.val p) (colAt t.val q) p q
    (blk4 m c t p _ (rowAt_val t p)) (blk5 m c t q _ (colAt_val t q))

/-- The block's distance entry is the reference's. -/
theorem distEntry_eq (t : Fin cfg0.N) (p : Fin 1024) (q : Fin 512) :
    k0_pay9 (F := Ideal) (iblk m c 0 t) (iblk m c 1 t) (iblk m c 2 t) (iblk m c 3 t) (ix2 p q)
      = val_main_v16 (F := Ideal) (arg0 m c) (arg1 m c) (ix2 (rowAt t.val p) (colAt t.val q)) :=
  dist_eq (arg0 m c) (arg1 m c) (iblk m c 0 t) (iblk m c 1 t) (iblk m c 2 t) (iblk m c 3 t) (rowAt t.val p) (colAt t.val q) p q
    (fun k => blk0 m c t p k _ (rowAt_val t p)) (fun k => blk1 m c t q k _ (colAt_val t q))
    (blk2 m c t p _ (rowAt_val t p)) (blk3 m c t q _ (colAt_val t q))

/-- The block's masked positive distance is the reference's. -/
theorem posEntry_eq (t : Fin cfg0.N) (p : Fin 1024) (q : Fin 512) :
    posEntry (grid0.coords t) (iblk m c 0 t) (iblk m c 1 t) (iblk m c 2 t) (iblk m c 3 t) (iblk m c 4 t) (iblk m c 5 t) p q
      = val_main_v30 (F := Ideal) (arg0 m c) (arg1 m c) (arg2 m c) (ix2 (rowAt t.val p) (colAt t.val q)) := by
  have e3 : val_main_call0_v0 (F := Ideal) (ix2 (rowAt t.val p) (colAt t.val q)) = NEG := by
    rw [val_main_call0_v0_apply, val_main_cst_3_apply]; rfl
  rw [val_main_v30_apply, ← posBit_eq m c t p q, ← distEntry_eq m c t p q, e3]
  rfl

/-- The block's masked negative distance is the reference's. -/
theorem negEntry_eq (t : Fin cfg0.N) (p : Fin 1024) (q : Fin 512) :
    negEntry (iblk m c 0 t) (iblk m c 1 t) (iblk m c 2 t) (iblk m c 3 t) (iblk m c 4 t) (iblk m c 5 t) p q
      = val_main_v32 (F := Ideal) (arg0 m c) (arg1 m c) (arg2 m c) (ix2 (rowAt t.val p) (colAt t.val q)) := by
  have e3 : val_main_call1_v0 (F := Ideal) (ix2 (rowAt t.val p) (colAt t.val q)) = POS := by
    rw [val_main_call1_v0_apply, val_main_cst_5_apply]; rfl
  rw [val_main_v32_apply, ← negBit_eq m c t p q, ← distEntry_eq m c t p q, e3]
  rfl

end Cert.KernelIdeal.Blocks

end
-- ==== Proof.Extrema.lean ====
/-
  Running maxima and minima over the columns of one row, by their universal properties.

  A row's maximum over all `N` columns is accumulated block by block: the accumulator starts at a base value `b`,
  and each step replaces it by the larger of itself and the maximum of the next `B` columns, that block's maximum
  itself a fold of `max` from a base `b'` which is no larger than `b`.  The accumulator after the columns below `n`
  is characterised, without naming the order of the comparisons, by

      a ≤ c  ↔  b ≤ c ∧ ∀ column x below n, f x ≤ c          (for every bound c),

  a property each step carries from `n` to `n + B` and which at `n = N` says the accumulator IS the fold of `max`
  over every column.  Minima are the order dual.  Last, a fold of `or` over one-bit words is one exactly when some
  word is.
-/
import Mathlib.Data.Finset.Fold
import Mathlib.Data.Fintype.Basic
import Mathlib.Order.Lattice
import Mathlib.Data.BitVec

namespace Cert.Triplet

variable {α : Type*} [LinearOrder α]

/-- `a` is the running maximum, from `b`, of `f` over the columns below `n`. -/
def MaxBelow {N : ℕ} (b : α) (f : Fin N → α) (n : ℕ) (a : α) : Prop :=
  ∀ c, a ≤ c ↔ b ≤ c ∧ ∀ x : Fin N, x.val < n → f x ≤ c

/-- `a` is the running minimum, from `b`, of `f` over the columns below `n`. -/
def MinBelow {N : ℕ} (b : α) (f : Fin N → α) (n : ℕ) (a : α) : Prop :=
  ∀ c, c ≤ a ↔ c ≤ b ∧ ∀ x : Fin N, x.val < n → c ≤ f x

theorem maxBelow_zero {N : ℕ} (b : α) (f : Fin N → α) : MaxBelow b f 0 b :=
  fun _ => ⟨fun h => ⟨h, fun _ hx => absurd hx (Nat.not_lt_zero _)⟩, fun h => h.1⟩

theorem minBelow_zero {N : ℕ} (b : α) (f : Fin N → α) : MinBelow b f 0 b :=
  fun _ => ⟨fun h => ⟨h, fun _ hx => absurd hx (Nat.not_lt_zero _)⟩, fun h => h.1⟩

/-- One step: the next `B` columns, read through `g`, are folded in. -/
theorem MaxBelow.step {N B : ℕ} {b b' : α} {f : Fin N → α} {n : ℕ} {a : α} (ha : MaxBelow b f n a) (hb : b' ≤ b)
    (hB : n + B ≤ N) (g : Fin B → α) (hg : ∀ q : Fin B, g q = f ⟨n + q.val, by have := q.isLt; omega⟩) :
    MaxBelow b f (n + B) (max a ((Finset.univ : Finset (Fin B)).fold max b' g)) := by
  intro c
  rw [max_le_iff, ha c, Finset.fold_max_le]
  constructor
  · rintro ⟨⟨h1, h2⟩, _, h4⟩
    refine ⟨h1, fun x hx => ?_⟩
    by_cases hlt : x.val < n
    · exact h2 x hlt
    · have hq : x.val - n < B := by omega
      have := h4 ⟨x.val - n, hq⟩ (Finset.mem_univ _)
      rw [hg] at this
      have e : (⟨n + (x.val - n), by omega⟩ : Fin N) = x := Fin.ext (by show n + (x.val - n) = x.val; omega)
      rwa [e] at this
  · rintro ⟨h1, h2⟩
    refine ⟨⟨h1, fun x hx => h2 x (by omega)⟩, le_trans hb h1, fun q _ => ?_⟩
    rw [hg]
    exact h2 _ (by show n + q.val < n + B; have := q.isLt; omega)

theorem MinBelow.step {N B : ℕ} {b b' : α} {f : Fin N → α} {n : ℕ} {a : α} (ha : MinBelow b f n a) (hb : b ≤ b')
    (hB : n + B ≤ N) (g : Fin B → α) (hg : ∀ q : Fin B, g q = f ⟨n + q.val, by have := q.isLt; omega⟩) :
    MinBelow b f (n + B) (min a ((Finset.univ : Finset (Fin B)).fold min b' g)) := by
  intro c
  rw [le_min_iff, ha c, Finset.le_fold_min]
  constructor
  · rintro ⟨⟨h1, h2⟩, _, h4⟩
    refine ⟨h1, fun x hx => ?_⟩
    by_cases hlt : x.val < n
    · exact h2 x hlt
    · have hq : x.val - n < B := by omega
      have := h4 ⟨x.val - n, hq⟩ (Finset.mem_univ _)
      rw [hg] at this
      have e : (⟨n + (x.val - n), by omega⟩ : Fin N) = x := Fin.ext (by show n + (x.val - n) = x.val; omega)
      rwa [e] at this
  · rintro ⟨h1, h2⟩
    refine ⟨⟨h1, fun x hx => h2 x (by omega)⟩, le_trans h1 hb, fun q _ => ?_⟩
    rw [hg]
    exact h2 _ (by show n + q.val < n + B; have := q.isLt; omega)

/-- After every column the running maximum is the fold of `max` over them all. -/
theorem MaxBelow.eq_fold {N : ℕ} {b : α} {f : Fin N → α} {a : α} (ha : MaxBelow b f N a) :
    a = (Finset.univ : Finset (Fin N)).fold max b f :=
  eq_of_forall_ge_iff fun c => by
    rw [ha c, Finset.fold_max_le]
    exact ⟨fun h => ⟨h.1, fun x _ => h.2 x x.isLt⟩, fun h => ⟨h.1, fun x _ => h.2 x (Finset.mem_univ _)⟩⟩

theorem MinBelow.eq_fold {N : ℕ} {b : α} {f : Fin N → α} {a : α} (ha : MinBelow b f N a) :
    a = (Finset.univ : Finset (Fin N)).fold min b f :=
  eq_of_forall_le_iff fun c => by
    rw [ha c, Finset.le_fold_min]
    exact ⟨fun h => ⟨h.1, fun x _ => h.2 x x.isLt⟩, fun h => ⟨h.1, fun x _ => h.2 x (Finset.mem_univ _)⟩⟩

/-- The running property does not depend on which of two equal values is named. -/
theorem MaxBelow.congr {N : ℕ} {b : α} {f : Fin N → α} {n n' : ℕ} {a a' : α} (ha : MaxBelow b f n a) (hn : n = n')
    (e : a' = a) : MaxBelow b f n' a' := by subst hn; subst e; exact ha

theorem MinBelow.congr {N : ℕ} {b : α} {f : Fin N → α} {n n' : ℕ} {a a' : α} (ha : MinBelow b f n a) (hn : n = n')
    (e : a' = a) : MinBelow b f n' a' := by subst hn; subst e; exact ha

end Cert.Triplet
-- ==== Proof.Accumulate.lean ====
/-
  The accumulators along a row block.

  Fix a row of the 8192 × 8192 matrices.  After the grid point standing at column block `j` of the row's block, the four
  accumulators hold, for that row: the running maximum from −∞ of the reference's masked positive distances over the
  columns below 512·(j+1); the running minimum from +∞ of its masked negative distances over them; and the running maxima
  from 0 of the two mask bits read as numbers.  The first point of a row block starts from the reset values, every
  later point from what the point before left; each point folds in its own 512 columns, whose entries are the reference's.
  After the last point (j = 15) the four are the reference's row reductions, and the two outputs written there are the
  hinge loss and the validity of the row, as functions of those.
-/
import proofs.«129636_j25451976196909_1_alg».proof.Proof.Entries
import proofs.«129636_j25451976196909_1_alg».proof.Proof.Extrema

noncomputable section

open Idealize.ShloMosaic Idealize.ShloMosaic.TcCoe Idealize.SL.Sem Idealize.ShloMosaic.ValueIdx

namespace Cert.KernelIdeal.Blocks

open Cert.KernelIdeal Cert.KernelIdeal.Gen Cert.KernelIdeal.Pieces Cert.Triplet
open Cert.ReferenceIdeal.ReadP (val_main_v28 val_main_v29 val_main_v30 val_main_v32)

variable (m : (ℓ : Loc nD τ sig) → Buf (Elt Ideal) ℓ) (c : Dev nD)

/-- The reference's four matrices at a row: masked positive and negative distances, and the two mask bits as numbers. -/
abbrev PE (r col : Fin 8192) : Ideal .f32 := val_main_v30 (F := Ideal) (arg0 m c) (arg1 m c) (arg2 m c) (ix2 r col)
abbrev NE (r col : Fin 8192) : Ideal .f32 := val_main_v32 (F := Ideal) (arg0 m c) (arg1 m c) (arg2 m c) (ix2 r col)
abbrev PF (r col : Fin 8192) : Ideal .f32 := flag (val_main_v28 (F := Ideal) (arg2 m c) (ix2 r col))
abbrev NF (r col : Fin 8192) : Ideal .f32 := flag (val_main_v29 (F := Ideal) (arg2 m c) (ix2 r col))

theorem NEG_le_ZERO : NEG ≤ ZERO := by
  show Ideal.ofBits .f32 0xFF800000#32 ≤ Ideal.ofBits .f32 0x00000000#32
  simp [Ideal.ofBits, Ideal.ieee]

/-- The reset values, read at a row. -/
theorem reset0 (p : Fin 1024) : k0_pay5 (F := Ideal) (ix2 p (0 : Fin 1)) = NEG := by
  unfold k0_pay5; exact congrFun (shapeCast_self _ _) _
theorem reset1 (p : Fin 1024) : k0_pay6 (F := Ideal) (ix2 p (0 : Fin 1)) = POS := by
  unfold k0_pay6; exact congrFun (shapeCast_self _ _) _
theorem reset2 (p : Fin 1024) : k0_pay7 (F := Ideal) (ix2 p (0 : Fin 1)) = ZERO := by
  unfold k0_pay7; exact congrFun (shapeCast_self _ _) _
theorem reset3 (p : Fin 1024) : k0_pay8 (F := Ideal) (ix2 p (0 : Fin 1)) = ZERO := by
  unfold k0_pay8; exact congrFun (shapeCast_self _ _) _

/-- What the four accumulators hold for row `p` of the block once the columns below `bound` are folded in. -/
structure Holds (r : Fin 8192) (p : Fin 1024) (bound : ℕ) (o0 o1 o2 o3 : FVec Ideal S1024x1 .f32) : Prop where
  pos : MaxBelow NEG (PE m c r) bound (o0 (ix2 p (0 : Fin 1)))
  neg : MinBelow POS (NE m c r) bound (o1 (ix2 p (0 : Fin 1)))
  anyPos : MaxBelow ZERO (PF m c r) bound (o2 (ix2 p (0 : Fin 1)))
  anyNeg : MaxBelow ZERO (NF m c r) bound (o3 (ix2 p (0 : Fin 1)))

variable {m c}

/-- The same fact about an equal row, an equal bound and equal contents. -/
theorem Holds.cast {r r' : Fin 8192} {p : Fin 1024} {b b' : ℕ} {o0 o1 o2 o3 o0' o1' o2' o3' : FVec Ideal S1024x1 .f32}
    (h : Holds m c r p b o0 o1 o2 o3) (hr : r = r') (hb : b = b') (e0 : o0' = o0) (e1 : o1' = o1) (e2 : o2' = o2) (e3 : o3' = o3) :
    Holds m c r' p b' o0' o1' o2' o3' := by
  subst hr; subst hb; subst e0; subst e1; subst e2; subst e3; exact h

variable (m c)

/-- One point folds its 512 columns in. -/
theorem Holds.step (t : Fin cfg0.N) (p : Fin 1024) (o0 o1 o2 o3 : FVec Ideal S1024x1 .f32)
    (h : Holds m c (rowAt t.val p) p (t.val % 16 * 512) o0 o1 o2 o3) :
    Holds m c (rowAt t.val p) p ((t.val % 16 + 1) * 512)
      (updPos (grid0.coords t) (iblk m c 0 t) (iblk m c 1 t) (iblk m c 2 t) (iblk m c 3 t) (iblk m c 4 t) (iblk m c 5 t) o0)
      (updNeg (iblk m c 0 t) (iblk m c 1 t) (iblk m c 2 t) (iblk m c 3 t) (iblk m c 4 t) (iblk m c 5 t) o1)
      (updAnyPos (grid0.coords t) (iblk m c 4 t) (iblk m c 5 t) o2)
      (updAnyNeg (iblk m c 4 t) (iblk m c 5 t) o3) := by
  have hB : t.val % 16 * 512 + 512 ≤ 8192 := by omega
  have hb : t.val % 16 * 512 + 512 = (t.val % 16 + 1) * 512 := by omega
  refine ⟨?_, ?_, ?_, ?_⟩
  · exact (h.pos.step (le_refl _) hB _ (fun q => posEntry_eq m c t p q)).congr hb
      (updPos_apply (grid0.coords t) (iblk m c 0 t) (iblk m c 1 t) (iblk m c 2 t) (iblk m c 3 t) (iblk m c 4 t) (iblk m c 5 t) o0 p)
  · exact (h.neg.step (le_refl _) hB _ (fun q => negEntry_eq m c t p q)).congr hb
      (updNeg_apply (iblk m c 0 t) (iblk m c 1 t) (iblk m c 2 t) (iblk m c 3 t) (iblk m c 4 t) (iblk m c 5 t) o1 p)
  · exact (h.anyPos.step NEG_le_ZERO hB _ (fun q => congrArg flag (posBit_eq m c t p q))).congr hb
      (updAnyPos_apply (grid0.coords t) (iblk m c 4 t) (iblk m c 5 t) o2 p)
  · exact (h.anyNeg.step NEG_le_ZERO hB _ (fun q => congrArg flag (negBit_eq m c t p q))).congr hb
      (updAnyNeg_apply (iblk m c 4 t) (iblk m c 5 t) o3 p)

/-- The accumulators after a point, case by case: the updates of the reset values, or of what the point before left. -/
theorem accs_A (t : Fin cfg0.N) (h0 : t.val % 16 = 0) (h1 : ¬t.val % 16 = 15) :
    (outsAt0 m c t.val t.isLt).2.2.1 = updPos (grid0.coords t) (iblk m c 0 t) (iblk m c 1 t) (iblk m c 2 t) (iblk m c 3 t) (iblk m c 4 t) (iblk m c 5 t) (k0_pay5 (F := Ideal))
    ∧ (outsAt0 m c t.val t.isLt).2.2.2.1 = updNeg (iblk m c 0 t) (iblk m c 1 t) (iblk m c 2 t) (iblk m c 3 t) (iblk m c 4 t) (iblk m c 5 t) (k0_pay6 (F := Ideal))
    ∧ (outsAt0 m c t.val t.isLt).2.2.2.2.1 = updAnyPos (grid0.coords t) (iblk m c 4 t) (iblk m c 5 t) (k0_pay7 (F := Ideal))
    ∧ (outsAt0 m c t.val t.isLt).2.2.2.2.2 = updAnyNeg (iblk m c 4 t) (iblk m c 5 t) (k0_pay8 (F := Ideal)) := by
  rw [outsAt0_A m c t h0 h1]
  dsimp only
  exact ⟨pos_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t), neg_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t), anyPos_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t), anyNeg_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t)⟩

theorem accs_B (t : Fin cfg0.N) (h0 : ¬t.val % 16 = 0) (h1 : ¬t.val % 16 = 15) :
    (outsAt0 m c t.val t.isLt).2.2.1 = updPos (grid0.coords t) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1
    ∧ (outsAt0 m c t.val t.isLt).2.2.2.1 = updNeg (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1
    ∧ (outsAt0 m c t.val t.isLt).2.2.2.2.1 = updAnyPos (grid0.coords t) (iblk m c 4 t) (iblk m c 5 t) (outsAt0 m c (t.val - 1) (Nat.lt_of_le_of_lt (Nat.sub_le _ _) t.isLt)).2.2.2.2.1
    ∧ (outsAt0 m c t.val t.isLt).2.2.2.2.2 = updAnyNeg (iblk m c 4 t) (iblk m c 5 t) (outsAt0 m c (t.val - 1) (Nat.lt_of_le_of_lt (Nat.sub_le _ _) t.isLt)).2.2.2.2.2 := by
  rw [outsAt0_B m c t h0 h1]
  dsimp only
  exact ⟨pos_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, neg_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, anyPos_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, anyNeg_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2⟩

theorem accs_C (t : Fin cfg0.N) (h0 : ¬t.val % 16 = 0) (h1 : t.val % 16 = 15) :
    (outsAt0 m c t.val t.isLt).2.2.1 = updPos (grid0.coords t) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1
    ∧ (outsAt0 m c t.val t.isLt).2.2.2.1 = updNeg (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1
    ∧ (outsAt0 m c t.val t.isLt).2.2.2.2.1 = updAnyPos (grid0.coords t) (iblk m c 4 t) (iblk m c 5 t) (outsAt0 m c (t.val - 1) (Nat.lt_of_le_of_lt (Nat.sub_le _ _) t.isLt)).2.2.2.2.1
    ∧ (outsAt0 m c t.val t.isLt).2.2.2.2.2 = updAnyNeg (iblk m c 4 t) (iblk m c 5 t) (outsAt0 m c (t.val - 1) (Nat.lt_of_le_of_lt (Nat.sub_le _ _) t.isLt)).2.2.2.2.2 := by
  rw [outsAt0_C m c t h0 h1]
  dsimp only
  exact ⟨pos_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, neg_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, anyPos_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, anyNeg_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2⟩

/-- At the last point of a row block the two outputs are functions of the updated accumulators. -/
theorem outs_C (t : Fin cfg0.N) (h0 : ¬t.val % 16 = 0) (h1 : t.val % 16 = 15) :
    (outsAt0 m c t.val t.isLt).1 = k0_pay3 (outsAt0 m c t.val t.isLt).2.2.2.2.1 (outsAt0 m c t.val t.isLt).2.2.2.2.2
        (outsAt0 m c t.val t.isLt).2.2.1 (outsAt0 m c t.val t.isLt).2.2.2.1
    ∧ (outsAt0 m c t.val t.isLt).2.1 = k0_pay4 (outsAt0 m c t.val t.isLt).2.2.2.2.1 (outsAt0 m c t.val t.isLt).2.2.2.2.2 := by
  obtain ⟨e0, e1, e2, e3⟩ := accs_C m c t h0 h1
  rw [e0, e1, e2, e3, outsAt0_C m c t h0 h1]
  dsimp only
  exact ⟨loss_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, valid_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2⟩

/-- The reset values hold the reductions over no column. -/
theorem holds_reset (r : Fin 8192) (p : Fin 1024) :
    Holds m c r p 0 (k0_pay5 (F := Ideal)) (k0_pay6 (F := Ideal)) (k0_pay7 (F := Ideal)) (k0_pay8 (F := Ideal)) :=
  ⟨(maxBelow_zero NEG _).congr rfl (reset0 p), (minBelow_zero POS _).congr rfl (reset1 p),
    (maxBelow_zero ZERO _).congr rfl (reset2 p), (maxBelow_zero ZERO _).congr rfl (reset3 p)⟩

/-- THE INVARIANT: after point `n` the accumulators hold, for every row of the block, the reductions over the columns
    below 512·(n % 16 + 1). -/
theorem holds_all : ∀ (n : ℕ) (hn : n < cfg0.N) (p : Fin 1024),
    Holds m c (rowAt n p) p ((n % 16 + 1) * 512) (outsAt0 m c n hn).2.2.1 (outsAt0 m c n hn).2.2.2.1 (outsAt0 m c n hn).2.2.2.2.1
      (outsAt0 m c n hn).2.2.2.2.2
  | 0, hn, p => by
    obtain ⟨e0, e1, e2, e3⟩ := accs_A m c ⟨0, hn⟩ rfl (show ¬(0 : ℕ) % 16 = 15 by decide)
    exact (((holds_reset m c (rowAt 0 p) p).cast rfl rfl rfl rfl rfl rfl).step m c ⟨0, hn⟩ p).cast rfl rfl e0 e1 e2 e3
  | n + 1, hn, p => by
    have ih := holds_all n (Nat.lt_of_succ_lt hn) p
    have hN : cfg0.N = 128 := N_0
    by_cases h0 : (n + 1) % 16 = 0
    · have h1 : ¬(n + 1) % 16 = 15 := by omega
      obtain ⟨e0, e1, e2, e3⟩ := accs_A m c ⟨n + 1, hn⟩ h0 h1
      have hz : 0 = (⟨n + 1, hn⟩ : Fin cfg0.N).val % 16 * 512 := by show 0 = (n + 1) % 16 * 512; rw [h0]
      exact (((holds_reset m c (rowAt (n + 1) p) p).cast rfl hz rfl rfl rfl rfl).step m c ⟨n + 1, hn⟩ p).cast rfl rfl e0 e1 e2 e3
    · have hrow : rowAt n p = rowAt (n + 1) p := Fin.ext (by
        show n / 16 % 8 * 1024 + p.val = (n + 1) / 16 % 8 * 1024 + p.val
        omega)
      have hbound : (n % 16 + 1) * 512 = (⟨n + 1, hn⟩ : Fin cfg0.N).val % 16 * 512 := by
        show (n % 16 + 1) * 512 = (n + 1) % 16 * 512
        omega
      have next := ((ih.cast hrow hbound rfl rfl rfl rfl).step m c ⟨n + 1, hn⟩ p)
      by_cases h1 : (n + 1) % 16 = 15
      · obtain ⟨e0, e1, e2, e3⟩ := accs_C m c ⟨n + 1, hn⟩ h0 h1
        exact next.cast rfl rfl e0 e1 e2 e3
      · obtain ⟨e0, e1, e2, e3⟩ := accs_B m c ⟨n + 1, hn⟩ h0 h1
        exact next.cast rfl rfl e0 e1 e2 e3

end Cert.KernelIdeal.Blocks

end
-- ==== Proof.RowResult.lean ====
/-
  A row's loss and validity, as the kernel leaves them at the last point of the row's block.

  After the last column block the four accumulators of a row are the reference's four row reductions: the maximum of its
  masked positive distances, the minimum of its masked negative distances, and — as "positive exactly when some bit is set"
  — the `or` of each mask over the row.  The kernel's loss entry is the hinge max(hardest positive − hardest negative +
  margin, 0), kept when both `or`s are set and 0 otherwise, and its validity entry is that condition as a number: the
  reference's per-row loss and validity.
-/
import proofs.«129636_j25451976196909_1_alg».proof.Proof.Accumulate

noncomputable section

open Idealize.ShloMosaic Idealize.ShloMosaic.TcCoe Idealize.SL.Sem Idealize.ShloMosaic.ValueIdx

namespace Cert.KernelIdeal.Blocks

open Cert.KernelIdeal Cert.KernelIdeal.Gen Cert.KernelIdeal.Pieces Cert.Triplet
open Cert.ReferenceIdeal.ReadP (val_main_v28 val_main_v29 val_main_v30 val_main_v31 val_main_v32 val_main_v33 val_main_v34 val_main_v35
  val_main_v36 val_main_v37 val_main_v38 val_main_v39 val_main_v40 val_main_v41 val_main_v42 val_main_v43 val_main_call2_v0 val_main_call2_v1
  val_main_v36_apply val_main_v37_apply val_main_v38_apply val_main_v39_apply val_main_v40_apply val_main_v41_apply val_main_v42_apply
  val_main_v43_apply val_main_call2_v0_apply val_main_call2_v1_apply val_main_cst_9_apply val_main_cst_10_apply val_main_cst_11_apply
  val_main_cst_4 val_main_cst_6 val_main_c_7 val_main_c_8)

variable (m : (ℓ : Loc nD τ sig) → Buf (Elt Ideal) ℓ) (c : Dev nD)

/-- The reference's hardest positive of row `r`: the maximum from −∞ of the row's masked positive distances. -/
theorem hardPos_row (r : Fin 8192) :
    val_main_v31 (F := Ideal) (arg0 m c) (arg1 m c) (arg2 m c) (ix1 r) = (Finset.univ : Finset (Fin 8192)).fold max NEG (PE m c r) :=
  hostReduce_row (FloatOps.maximumf (F := Ideal) (φ := .f32)) (val_main_v30 (F := Ideal) (arg0 m c) (arg1 m c) (arg2 m c))
    (val_main_cst_4 (F := Ideal)) Cert.ReferenceIdeal.Facts₀.reducesTo_S8192x8192_S8192_d1 (by decide) Cert.ReferenceIdeal.Facts₀.h_S_ r

/-- Its hardest negative: the minimum from +∞ of the row's masked negative distances. -/
theorem hardNeg_row (r : Fin 8192) :
    val_main_v33 (F := Ideal) (arg0 m c) (arg1 m c) (arg2 m c) (ix1 r) = (Finset.univ : Finset (Fin 8192)).fold min POS (NE m c r) :=
  hostReduce_row (FloatOps.minimumf (F := Ideal) (φ := .f32)) (val_main_v32 (F := Ideal) (arg0 m c) (arg1 m c) (arg2 m c))
    (val_main_cst_6 (F := Ideal)) Cert.ReferenceIdeal.Facts₀.reducesTo_S8192x8192_S8192_d1 (by decide) Cert.ReferenceIdeal.Facts₀.h_S_ r

/-- Whether the row has a positive column, and a negative one: the `or` of the mask over the row. -/
theorem anyPos_row (r : Fin 8192) :
    val_main_v34 (F := Ideal) (arg2 m c) (ix1 r)
      = (Finset.univ : Finset (Fin 8192)).fold IntOp.ori 0#1 (fun col => val_main_v28 (F := Ideal) (arg2 m c) (ix2 r col)) :=
  hostReduce_row IntOp.ori (val_main_v28 (F := Ideal) (arg2 m c))
    (val_main_c_7 (F := Ideal)) Cert.ReferenceIdeal.Facts₀.reducesTo_S8192x8192_S8192_d1 (by decide) Cert.ReferenceIdeal.Facts₀.h_S_ r
theorem anyNeg_row (r : Fin 8192) :
    val_main_v35 (F := Ideal) (arg2 m c) (ix1 r)
      = (Finset.univ : Finset (Fin 8192)).fold IntOp.ori 0#1 (fun col => val_main_v29 (F := Ideal) (arg2 m c) (ix2 r col)) :=
  hostReduce_row IntOp.ori (val_main_v29 (F := Ideal) (arg2 m c))
    (val_main_c_8 (F := Ideal)) Cert.ReferenceIdeal.Facts₀.reducesTo_S8192x8192_S8192_d1 (by decide) Cert.ReferenceIdeal.Facts₀.h_S_ r

theorem ZERO_eq : ZERO = (0 : EReal) := Ideal.ofBits_zero_f32

/-- "The running maximum of the mask's numbers is positive" is the `or` of the mask. -/
theorem seen_eq_or (f : Fin 8192 → BitVec 1) (a : Ideal .f32) (ha : MaxBelow ZERO (fun col => flag (f col)) 8192 a) :
    Ideal.cmp .ogt a ZERO = (Finset.univ : Finset (Fin 8192)).fold IntOp.ori 0#1 f := by
  refine bit_ext ?_
  rw [cmp_ogt_eq_one, ha.eq_fold, fold_ori_eq_one, ZERO_eq]
  exact fold_max_flag_pos _ f

/-- At the last point of a row block (`t % 16 = 15`), row `p`: the four accumulators are the reference's row reductions. -/
theorem final_accs (t : Fin cfg0.N) (h1 : t.val % 16 = 15) (p : Fin 1024) :
    (outsAt0 m c t.val t.isLt).2.2.1 (ix2 p (0 : Fin 1)) = val_main_v31 (F := Ideal) (arg0 m c) (arg1 m c) (arg2 m c) (ix1 (rowAt t.val p))
    ∧ (outsAt0 m c t.val t.isLt).2.2.2.1 (ix2 p (0 : Fin 1)) = val_main_v33 (F := Ideal) (arg0 m c) (arg1 m c) (arg2 m c) (ix1 (rowAt t.val p))
    ∧ Ideal.cmp .ogt ((outsAt0 m c t.val t.isLt).2.2.2.2.1 (ix2 p (0 : Fin 1))) ZERO = val_main_v34 (F := Ideal) (arg2 m c) (ix1 (rowAt t.val p))
    ∧ Ideal.cmp .ogt ((outsAt0 m c t.val t.isLt).2.2.2.2.2 (ix2 p (0 : Fin 1))) ZERO = val_main_v35 (F := Ideal) (arg2 m c) (ix1 (rowAt t.val p)) := by
  have h := holds_all m c t.val t.isLt p
  have hb : (t.val % 16 + 1) * 512 = 8192 := by rw [h1]
  refine ⟨?_, ?_, ?_, ?_⟩
  · rw [hardPos_row]; exact (h.pos.congr hb rfl).eq_fold
  · rw [hardNeg_row]; exact (h.neg.congr hb rfl).eq_fold
  · rw [anyPos_row]; exact seen_eq_or _ _ (h.anyPos.congr hb rfl)
  · rw [anyNeg_row]; exact seen_eq_or _ _ (h.anyNeg.congr hb rfl)

/-- The kernel's loss entry of the row is the reference's. -/
theorem loss_row (t : Fin cfg0.N) (h1 : t.val % 16 = 15) (p : Fin 1024) :
    (outsAt0 m c t.val t.isLt).1 (ix2 p (0 : Fin 1)) = val_main_v42 (F := Ideal) (arg0 m c) (arg1 m c) (arg2 m c) (ix1 (rowAt t.val p)) := by
  have h0 : ¬t.val % 16 = 0 := by omega
  obtain ⟨e0, e1, e2, e3⟩ := final_accs m c t h1 p
  rw [(outs_C m c t h0 h1).1, val_main_v42_apply, val_main_v41_apply, val_main_v39_apply, val_main_v37_apply, val_main_v38_apply,
    val_main_cst_9_apply, val_main_v40_apply, val_main_cst_10_apply, val_main_call2_v1_apply, val_main_call2_v0_apply,
    val_main_cst_11_apply, val_main_v36_apply, ← e0, ← e1, ← e2, ← e3]
  rfl

/-- The kernel's validity entry of the row is the reference's. -/
theorem valid_row (t : Fin cfg0.N) (h1 : t.val % 16 = 15) (p : Fin 1024) :
    (outsAt0 m c t.val t.isLt).2.1 (ix2 p (0 : Fin 1)) = val_main_v43 (F := Ideal) (arg2 m c) (ix1 (rowAt t.val p)) := by
  have h0 : ¬t.val % 16 = 0 := by omega
  obtain ⟨e0, e1, e2, e3⟩ := final_accs m c t h1 p
  rw [(outs_C m c t h0 h1).2, val_main_v43_apply, val_main_v36_apply, ← e2, ← e3, uitofp_bit]
  exact sitofp_setWidth _

end Cert.KernelIdeal.Blocks

end
-- ==== Proof.Columns.lean ====
/-
  The kernel's two output columns, and their sums.

  The loss column and the validity column the kernel writes back — one block of 1024 rows at the last point of each row
  block, the eight blocks tiling the 8192 rows — are the reference's per-row losses and validities laid out as columns;
  and a column's total, as the host sums it, is the corresponding vector's total.
-/
import proofs.«129636_j25451976196909_1_alg».proof.Proof.RowResult

noncomputable section

open Idealize.ShloMosaic Idealize.ShloMosaic.TcCoe Idealize.SL.Sem Idealize.ShloMosaic.ValueIdx

namespace Cert.KernelIdeal.Blocks

open Cert.KernelIdeal Cert.KernelIdeal.Gen Cert.KernelIdeal.Pieces Cert.Triplet
open Cert.ReferenceIdeal.ReadP (val_main_v42 val_main_v43 val_main_v44 val_main_v46 val_main_v49 val_main_v44_apply val_main_v46_apply)

variable (m : (ℓ : Loc nD τ sig) → Buf (Elt Ideal) ℓ) (ρ : Dev nD → PrngReg) (c : Dev nD)

/-- The reference's per-row losses and validities, as columns. -/
def lossCol : S8192x1.Idx → Ideal .f32 :=
  fun i => val_main_v42 (F := Ideal) (arg0 m c) (arg1 m c) (arg2 m c) (ix1 ⟨(i 0).val, idx2_lt0 i⟩)
def validCol : S8192x1.Idx → Ideal .f32 :=
  fun i => val_main_v43 (F := Ideal) (arg2 m c) (ix1 ⟨(i 0).val, idx2_lt0 i⟩)

/-- At the last point of a row block, the staged loss entry at any index of the block is the reference's loss of that row. -/
theorem lossAt (t : Fin cfg0.N) (h15 : t.val % 16 = 15) (z : S1024x1.Idx) :
    (outsAt0 m c t.val t.isLt).1 z
      = val_main_v42 (F := Ideal) (arg0 m c) (arg1 m c) (arg2 m c) (ix1 (rowAt t.val ⟨(z 0).val, idx2_lt0 z⟩)) := by
  obtain ⟨p, u, rfl⟩ : ∃ (p : Fin 1024) (u : Fin 1), z = ix2 p u := ⟨z 0, z 1, eq_ix2 z⟩
  obtain rfl : u = 0 := Fin.ext (by omega)
  exact loss_row m c t h15 p

theorem validAt (t : Fin cfg0.N) (h15 : t.val % 16 = 15) (z : S1024x1.Idx) :
    (outsAt0 m c t.val t.isLt).2.1 z
      = val_main_v43 (F := Ideal) (arg2 m c) (ix1 (rowAt t.val ⟨(z 0).val, idx2_lt0 z⟩)) := by
  obtain ⟨p, u, rfl⟩ : ∃ (p : Fin 1024) (u : Fin 1), z = ix2 p u := ⟨z 0, z 1, eq_ix2 z⟩
  obtain rfl : u = 0 := Fin.ext (by omega)
  exact valid_row m c t h15 p

/-- A staged column whose entry `z` is a function `L` of the global row of `z` is, read through the block of point `t`,
    the block of the column `i ↦ L i`: entry `z` of the block is row 1024·(t/16) + z of the array. -/
theorem cut_eq_read6 (L : Fin 8192 → Ideal .f32) (G : S8192x1.Idx → Ideal .f32) (hG : ∀ i, G i = L ⟨(i 0).val, idx2_lt0 i⟩)
    (X : FVec Ideal S1024x1 .f32) (t : Fin cfg0.N) (hX : ∀ z : S1024x1.Idx, X z = L (rowAt t.val ⟨(z 0).val, idx2_lt0 z⟩)) :
    (cfg0.win 6).cut (grid0.coords t) X = ((cfg0.win 6).blk t).view.read (Elt Ideal) G := by
  have hN : cfg0.N = 128 := N_0
  have ht := t.isLt
  refine funext fun y => ?_
  refine (hX _).trans ?_
  rw [View.read_apply]
  show _ = G (((cfg0.win 6).blk t).view.emb y)
  rw [hG]
  refine congrArg L (Fin.ext ?_)
  show t.val / 16 % 8 * 1024 + (y 0).val = win0_6.index t 0 * 1024 + 1 * (y 0).val
  rw [(index_facts t).2.2.2.2.2.2.1.1]
  omega

theorem cut_eq_read7 (L : Fin 8192 → Ideal .f32) (G : S8192x1.Idx → Ideal .f32) (hG : ∀ i, G i = L ⟨(i 0).val, idx2_lt0 i⟩)
    (X : FVec Ideal S1024x1 .f32) (t : Fin cfg0.N) (hX : ∀ z : S1024x1.Idx, X z = L (rowAt t.val ⟨(z 0).val, idx2_lt0 z⟩)) :
    (cfg0.win 7).cut (grid0.coords t) X = ((cfg0.win 7).blk t).view.read (Elt Ideal) G := by
  have hN : cfg0.N = 128 := N_0
  have ht := t.isLt
  refine funext fun y => ?_
  refine (hX _).trans ?_
  rw [View.read_apply]
  show _ = G (((cfg0.win 7).blk t).view.emb y)
  rw [hG]
  refine congrArg L (Fin.ext ?_)
  show t.val / 16 % 8 * 1024 + (y 0).val = win0_7.index t 0 * 1024 + 1 * (y 0).val
  rw [(index_facts t).2.2.2.2.2.2.2.1.1]
  omega

/-- What the last point of a row block writes back is that block of the reference's losses. -/
theorem flushedLoss (t : Fin cfg0.N) (hf : (cfg0.win 6).flush t = true) :
    (dats m 0 c).flushed 6 t = ((cfg0.win 6).blk t).view.read (Elt Ideal) (lossCol m c) := by
  have h15 : t.val % 16 = 15 := (flush0_6 t).mp hf
  show (cfg0.win 6).cut (grid0.coords t) ((dats m 0 c).after 6 t) = _
  rw [after0_6]
  exact cut_eq_read6 (fun r => val_main_v42 (F := Ideal) (arg0 m c) (arg1 m c) (arg2 m c) (ix1 r)) (lossCol m c) (fun _ => rfl)
    (outsAt0 m c t.val t.isLt).1 t (fun z => lossAt m c t h15 z)

/-- Likewise the validities. -/
theorem flushedValid (t : Fin cfg0.N) (hf : (cfg0.win 7).flush t = true) :
    (dats m 0 c).flushed 7 t = ((cfg0.win 7).blk t).view.read (Elt Ideal) (validCol m c) := by
  have h15 : t.val % 16 = 15 := (flush0_7 t).mp hf
  show (cfg0.win 7).cut (grid0.coords t) ((dats m 0 c).after 7 t) = _
  rw [after0_7]
  exact cut_eq_read7 (fun r => val_main_v43 (F := Ideal) (arg2 m c) (ix1 r)) (validCol m c) (fun _ => rfl)
    (outsAt0 m c t.val t.isLt).2.1 t (fun z => validAt m c t h15 z)

/-- The point that writes row `i` back: the last one of the row's block. -/
def lastPoint (i : S8192x1.Idx) : Fin cfg0.N :=
  ⟨(i 0).val / 1024 * 16 + 15, by
    have hN : cfg0.N = 128 := N_0
    have := idx2_lt0 i
    omega⟩

theorem lastPoint_facts (i : S8192x1.Idx) : (lastPoint i).val % 16 = 15 ∧ (lastPoint i).val / 16 = (i 0).val / 1024 := by
  show ((i 0).val / 1024 * 16 + 15) % 16 = 15 ∧ ((i 0).val / 1024 * 16 + 15) / 16 = (i 0).val / 1024
  omega

/-- Every row of the loss array is in the block its row block's last point writes back. -/
theorem coverLoss (i : S8192x1.Idx) : ∃ t : Fin cfg0.N, (cfg0.win 6).flush t = true ∧ i ∈ ((cfg0.win 6).blk t).view.set := by
  obtain ⟨h15, hdiv⟩ := lastPoint_facts i
  refine ⟨lastPoint i, (flush0_6 _).mpr h15, ?_⟩
  show i ∈ ((View.whole main_v8_0).slice (win0_6.rect (lastPoint i))).set
  rw [View.set_slice_whole, Rect.mem_set_unit]
  have h0 := idx2_lt0 i
  have h1 := idx2_lt1 i
  intro a
  match a with
  | ⟨0, _⟩ =>
    show win0_6.index (lastPoint i) 0 * 1024 ≤ (i 0).val ∧ (i 0).val < win0_6.index (lastPoint i) 0 * 1024 + 1024
    rw [(index_facts (lastPoint i)).2.2.2.2.2.2.1.1, hdiv]; omega
  | ⟨1, _⟩ =>
    show win0_6.index (lastPoint i) 1 * 1 ≤ (i 1).val ∧ (i 1).val < win0_6.index (lastPoint i) 1 * 1 + 1
    rw [(index_facts (lastPoint i)).2.2.2.2.2.2.1.2]; omega

theorem coverValid (i : S8192x1.Idx) : ∃ t : Fin cfg0.N, (cfg0.win 7).flush t = true ∧ i ∈ ((cfg0.win 7).blk t).view.set := by
  obtain ⟨h15, hdiv⟩ := lastPoint_facts i
  refine ⟨lastPoint i, (flush0_7 _).mpr h15, ?_⟩
  show i ∈ ((View.whole main_v8_1).slice (win0_7.rect (lastPoint i))).set
  rw [View.set_slice_whole, Rect.mem_set_unit]
  have h0 := idx2_lt0 i
  have h1 := idx2_lt1 i
  intro a
  match a with
  | ⟨0, _⟩ =>
    show win0_7.index (lastPoint i) 0 * 1024 ≤ (i 0).val ∧ (i 0).val < win0_7.index (lastPoint i) 0 * 1024 + 1024
    rw [(index_facts (lastPoint i)).2.2.2.2.2.2.2.1.1, hdiv]; omega
  | ⟨1, _⟩ =>
    show win0_7.index (lastPoint i) 1 * 1 ≤ (i 1).val ∧ (i 1).val < win0_7.index (lastPoint i) 1 * 1 + 1
    rw [(index_facts (lastPoint i)).2.2.2.2.2.2.2.1.2]; omega

/-- The two output arrays after the kernel. -/
theorem finalLoss : (dats m 0 c).arrAt 6 cfg0.N = lossCol m c :=
  (dats m 0 c).arrAt_eq_of_cover 6 (lossCol m c) (fun t hf => flushedLoss m c t hf) coverLoss
theorem finalValid : (dats m 0 c).arrAt 7 cfg0.N = validCol m c :=
  (dats m 0 c).arrAt_eq_of_cover 7 (validCol m c) (fun t hf => flushedValid m c t hf) coverValid

/-- A sum over the indices of a vector is the sum over its coordinate. -/
theorem sum_idx1 {M : Type*} [AddCommMonoid M] {n : ℕ} (f : (⟨1, ![n]⟩ : Shape).Idx → M) : ∑ j, f j = ∑ a : Fin n, f (ix1 a) :=
  Fintype.sum_equiv (⟨fun j => (j 0 : Fin n), ix1, fun j => (eq_ix1 j).symm, fun _ => rfl⟩ : (⟨1, ![n]⟩ : Shape).Idx ≃ Fin n) _ _
    (fun j => congrArg f (eq_ix1 j))

/-- A column's total is its vector's total. -/
theorem sum_col (g : (⟨1, ![8192]⟩ : Shape).Idx → Ideal .f32) :
    ∑ i : S8192x1.Idx, g (ix1 ⟨(i 0).val, idx2_lt0 i⟩) = ∑ j, g j := by
  rw [sum_idx2, sum_idx1]
  exact Finset.sum_congr rfl fun a _ => Fin.sum_univ_one _

/-- The host's count of valid rows and total loss, from the kernel's columns, are the reference's. -/
theorem count_eq : Host.reduceAdd (validCol m c) (constant S_ .f32 0x00000000#32) reducesTo_S8192x1_S_d0_1 h_S_
    = val_main_v44 (F := Ideal) (arg2 m c) := by
  funext i
  rw [val_main_v44_apply]
  simp only [Host.reduceAdd, Ideal.hostReduceAdd_def]
  rw [Ideal.hostReduceAdd_total reducesTo_S8192x1_S_d0_1 (fun b => b.elim0) _ _ i]
  exact congrArg (_ + ·) (sum_col (val_main_v43 (F := Ideal) (arg2 m c)))

theorem total_eq : Host.reduceAdd (lossCol m c) (constant S_ .f32 0x00000000#32) reducesTo_S8192x1_S_d0_1 h_S_
    = val_main_v46 (F := Ideal) (arg0 m c) (arg1 m c) (arg2 m c) := by
  funext i
  rw [val_main_v46_apply]
  simp only [Host.reduceAdd, Ideal.hostReduceAdd_def]
  rw [Ideal.hostReduceAdd_total reducesTo_S8192x1_S_d0_1 (fun b => b.elim0) _ _ i]
  exact congrArg (_ + ·) (sum_col (val_main_v42 (F := Ideal) (arg0 m c) (arg1 m c) (arg2 m c)))

end Cert.KernelIdeal.Blocks

end
-- ==== Proof.KernelValue.lean ====
/-
  The kernel's result.

  The host operations after the kernel sum the two columns, compare the count with zero, divide the total by the larger of
  the count and one, and select: the operations the reference applies to its two vectors.  The columns' sums are the
  vectors' sums, so the kernel's program ends with the reference's value.
-/
import proofs.«129636_j25451976196909_1_alg».proof.Proof.Columns

noncomputable section

open Idealize.ShloMosaic Idealize.ShloMosaic.TcCoe Idealize.SL.Sem Idealize.ShloMosaic.ValueIdx

namespace Cert.KernelIdeal.Blocks

open Cert.KernelIdeal Cert.KernelIdeal.Gen Cert.KernelIdeal.Pieces Cert.Triplet
open Cert.ReferenceIdeal.ReadP (val_main_v42 val_main_v43 val_main_v44 val_main_v46 val_main_v49 val_main_v44_apply val_main_v46_apply)

variable (m : (ℓ : Loc nD τ sig) → Buf (Elt Ideal) ℓ) (ρ : Dev nD → PrngReg) (c : Dev nD)

/-- After the host operations that follow the kernel, the result buffer holds the reference's value. -/
theorem tail_eq : Pipeline.afterTail₀ cfgs (dats m) 0 (V0 m) [hostOps1, hostOps1_1] c main_v14
    = val_main_v49 (F := Ideal) (arg0 m c) (arg1 m c) (arg2 m c) := by
  have hw7 : Pipeline.withArrays (cfgs 0).spec c (V0 m c) (fun w => (dats m 0 c).arrAt w (cfgs 0).N) (Proc.devRef .tc main_v8_1)
      = validCol m c := (Pipeline.withArrays_arr spec0 winFacts0.arr_inj c _ _ 7).trans (finalValid m c)
  have hw6 : Pipeline.withArrays (cfgs 0).spec c (V0 m c) (fun w => (dats m 0 c).arrAt w (cfgs 0).N) (Proc.devRef .tc main_v8_0)
      = lossCol m c := (Pipeline.withArrays_arr spec0 winFacts0.arr_inj c _ _ 6).trans (finalLoss m c)
  unfold Pipeline.afterTail₀
  simp only [hostOps1, hostOps1_1, List.flatten_cons, List.flatten_nil, List.append_nil, List.cons_append, List.nil_append]
  after_results
  -- name the two columns the host operations read, then their two sums: what remains is one expression of the count and the total
  generalize Pipeline.withArrays (cfgs 0).spec c (V0 m c) (fun w => (dats m 0 c).arrAt w (cfgs 0).N) (Proc.devRef .tc main_v8_1) = W7 at hw7 ⊢
  generalize Pipeline.withArrays (cfgs 0).spec c (V0 m c) (fun w => (dats m 0 c).arrAt w (cfgs 0).N) (Proc.devRef .tc main_v8_0) = W6 at hw6 ⊢
  have hc : Host.reduceAdd (F := Ideal) W7 (constant S_ .f32 0x00000000#32) reducesTo_S8192x1_S_d0_1 h_S_ = val_main_v44 (F := Ideal) (arg2 m c) := by
    rw [hw7]; exact count_eq m c
  have ht : Host.reduceAdd (F := Ideal) W6 (constant S_ .f32 0x00000000#32) reducesTo_S8192x1_S_d0_1 h_S_
      = val_main_v46 (F := Ideal) (arg0 m c) (arg1 m c) (arg2 m c) := by
    rw [hw6]; exact total_eq m c
  generalize Host.reduceAdd (F := Ideal) W7 (constant S_ .f32 0x00000000#32) reducesTo_S8192x1_S_d0_1 h_S_ = C at hc ⊢
  generalize Host.reduceAdd (F := Ideal) W6 (constant S_ .f32 0x00000000#32) reducesTo_S8192x1_S_d0_1 h_S_ = T at ht ⊢
  unfold Cert.ReferenceIdeal.ReadP.val_main_v49 Cert.ReferenceIdeal.ReadP.val_main_v45 Cert.ReferenceIdeal.ReadP.val_main_v48
    Cert.ReferenceIdeal.ReadP.val_main_v47
  rw [← hc, ← ht]
  rfl

/-- THE KERNEL'S RUN, READ: every weakly fair execution of the kernel's program terminates with the result buffer at the
    reference's value of the arguments, and the arguments unchanged. -/
theorem run : θ_run defs (onTc (τ := τ) (main (F := Ideal))) ⟨m, fun _ => 0, ρ⟩ fun r => ∀ c : Dev nD,
      r.2.mem ((c.tc : Thread nD τ).loc main_v14) = val_main_v49 (F := Ideal) (arg0 m c) (arg1 m c) (arg2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v14 (Pipeline.mem_restRefs_of main_v14 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Blocks

end
-- ==== Proof.lean ====
/-
  The triplet loss with hardest-example mining: the tiled kernel against the whole-matrix reference.

  Both programs take two arrays of 8192 embeddings with 512 features and 8192 integer labels.  For every pair (r, col) the
  distance is √(max(‖a_r‖² + ‖b_col‖² − 2⟨a_r, b_col⟩, ε)); column `col` is POSITIVE for row `r` when the labels agree and
  r ≠ col, NEGATIVE when the labels differ.  A row's loss is max(hardest positive − hardest negative + margin, 0) — the
  largest positive distance and the smallest negative one — and counts only when the row has a positive and a negative
  column; the result is the sum of the counted losses over the larger of their number and one (0 when none counts).

  The reference forms the 8192 × 8192 matrices and reduces each row.  The kernel walks an 8 × 16 grid of 1024 × 512
  blocks: along a row block it keeps, per row, the running maximum, the running minimum and two running "seen a positive /
  a negative" flags, resets them at the first column block and emits the rows' losses and validities at the last; the host
  then sums the two columns and divides.  Over the extended reals the two agree: a block's entries are the reference's
  entries (Dist, Masks, Entries), the accumulators after a column block are the row's reductions over the columns so far,
  by their universal properties (Extrema, Accumulate), after the last block they are the reference's reductions and give its
  per-row loss and validity (Flags, RowResult), and the column sums are the vector sums (KernelValue).  No law used needs
  finite inputs: maxima, minima and comparisons on the extended reals, and the same arithmetic expression entry by entry.

  The frames of the two kernel programs are the generated ones; the reference's frame is its run with the result dropped;
  the idealization rewrote nothing, so `preserves` is trivial.
-/
import proofs.«129636_j25451976196909_1_alg».proof.Defs
import proofs.«129636_j25451976196909_1_alg».proof.Proof.Gen.Kernel
import proofs.«129636_j25451976196909_1_alg».proof.Proof.Gen.Kernel.Skeleton
import proofs.«129636_j25451976196909_1_alg».proof.Proof.Gen.Kernel.Launch
import proofs.«129636_j25451976196909_1_alg».proof.Proof.Gen.Kernel.Points
import proofs.«129636_j25451976196909_1_alg».proof.Proof.Gen.Kernel.Frame
import proofs.«129636_j25451976196909_1_alg».proof.Proof.Gen.KernelIdeal
import proofs.«129636_j25451976196909_1_alg».proof.Proof.Gen.KernelIdeal.Skeleton
import proofs.«129636_j25451976196909_1_alg».proof.Proof.Gen.KernelIdeal.Launch
import proofs.«129636_j25451976196909_1_alg».proof.Proof.Gen.KernelIdeal.Points
import proofs.«129636_j25451976196909_1_alg».proof.Proof.Gen.KernelIdeal.Frame
import proofs.«129636_j25451976196909_1_alg».proof.Proof.Gen.ReferenceIdeal
import proofs.«129636_j25451976196909_1_alg».proof.Proof.Gen.Pre_finite_inputs
import proofs.«129636_j25451976196909_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- At the ideal values the kernel's program ends with the reference's function of the arguments, and the reference with
    that function of arguments that agree. -/
theorem algebraic : Cert.algebraic_KernelIdeal_ReferenceIdeal := by
  intro m ρ m' ρ' _ hagree
  refine ⟨fun c => Cert.ReferenceIdeal.ReadP.val_main_v49 (F := Ideal) (Cert.KernelIdeal.Blocks.arg0 m c)
    (Cert.KernelIdeal.Blocks.arg1 m c) (Cert.KernelIdeal.Blocks.arg2 m c), Cert.KernelIdeal.Blocks.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v49_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
